-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part3 {F : FTy → Type} [FloatOps F] (main_arg9 : FVec F S128 .f32) (main_v48 : IVec S_ 1) (main_v49 : FVec F S100000x64 .f32) (main_v50 : FVec F S100000x64 .f32) : IVec S_ 1 :=
  let main_v51 : IVec S100000x64 1 := cmpf .olt main_v49 main_v50
  let main_c_19 : IVec S_ 1 := constantI S_ 1 1#1
  let main_v52 : IVec S_ 1 := (fun x v => Host.reduce IntOp.andi x v reducesTo_S100000x64_S_d0_1 h_S_) main_v51 main_c_19
  let main_v53 : IVec S_ 1 := andi main_v48 main_v52
  let main_cst_20 : FVec F S_ .f32 := constant S_ .f32 0x00000000#32
  let main_v54 : FVec F S128 .f32 := broadcastInDim S128 ![] bcast_S_S128 main_cst_20
  let main_v55 : IVec S128 1 := cmpf .oge main_arg9 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v53 main_v56
  main_v57

def fn_part2 {F : FTy → Type} [FloatOps F] (main_arg9 : FVec F S128 .f32) (main_arg10 : FVec F S128x64 .f32) (main_arg11 : FVec F S64 .f32) (main_arg12 : FVec F S100000x64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S100000x64 .f32 := Host.absf main_arg12
  let main_cst_18 : FVec F S_ .f32 := constant S_ .f32 0x7F800000#32
  let main_v50 : FVec F S100000x64 .f32 := broadcastInDim S100000x64 ![] bcast_S_S100000x64 main_cst_18
  fn_part3 (F := F) main_arg9 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128x64 .f32) (main_arg11 : FVec F S64 .f32) (main_arg12 : FVec F S100000x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128 .f32) (main_arg7 : FVec F S128 .f32) (main_arg8 : FVec F S128 .f32) (main_arg9 : FVec F S128 .f32) (main_arg10 : FVec F S128x64 .f32) (main_arg11 : FVec F S64 .f32) (main_arg12 : FVec F S100000x64 .f32) (main_arg13 : IVec S100000 1) (main_arg14 : IVec S100000 1) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x64 : Shape := ⟨2, ![4000, 64]⟩
abbrev S1600000x64 : Shape := ⟨2, ![1600000, 64]⟩
abbrev S100000x1 : Shape := ⟨2, ![100000, 1]⟩
abbrev S1x64 : Shape := ⟨2, ![1, 64]⟩
abbrev S4000x1 : Shape := ⟨2, ![4000, 1]⟩
abbrev S4000 : Shape := ⟨1, ![4000]⟩

abbrev nBuf : Space → Nat
  | .hbm => 67
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S100000x64, .f32⟩
  | .hbm, ⟨13, _⟩ => ⟨S100000, .i1⟩
  | .hbm, ⟨14, _⟩ => ⟨S100000, .i1⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S100000x128, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000, .f32⟩
  | .hbm, ⟨61, _⟩ => ⟨S100000x1, .f32⟩
  | .hbm, ⟨62, _⟩ => ⟨S100000, .f32⟩
  | .hbm, ⟨63, _⟩ => ⟨S100000x1, .f32⟩
  | .hbm, ⟨64, _⟩ => ⟨S1x64, .f32⟩
  | .hbm, ⟨65, _⟩ => ⟨S100000x64, .f32⟩
  | .hbm, ⟨66, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S1x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S4000x1, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc3_sem6_0 : DmaSem sig := 27
abbrev cc3_sem6_1 : DmaSem sig := 28

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S128 : S_.BroadcastsInDim S128 (![] : Fin 0 → Fin S128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  reduces_S4000x64_S4000 : S4000x64.Reduces [1] S4000
  shapeCasts_S4000_S4000x1 : S4000.ShapeCasts S4000x1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .f32 = 32 ∨ (Rect.block (s := S100000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x64.size a ≤ S100000x64.size a
  hwx3_5 : ∀ i : grid3.Coords, EltTy.bits .f32 = 32 ∨ (Rect.block (s := S100000x64) S4000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x64.size a ≤ S100000x64.size a
  hwx3_6 : ∀ i : grid3.Coords, EltTy.bits .f32 = 32 ∨ (Rect.block (s := S100000x64) S4000x64.size (cc3_transform_6 i) (hinb3_6 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v41) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v43_0) S4000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v43_1) S4000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1600000x64 : Shape := ⟨2, ![1600000, 64]⟩
abbrev S1x64 : Shape := ⟨2, ![1, 64]⟩
abbrev S100000x1 : Shape := ⟨2, ![100000, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S100000x64, .f32⟩
  | .hbm, ⟨13, _⟩ => ⟨S100000, .i1⟩
  | .hbm, ⟨14, _⟩ => ⟨S100000, .i1⟩
  | .hbm, ⟨15, _⟩ => ⟨S100000x128, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x1, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S1600000x1, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000, .i1⟩
  | .hbm, ⟨75, _⟩ => ⟨S100000x1, .i1⟩
  | .hbm, ⟨76, _⟩ => ⟨S100000x64, .i1⟩
  | .hbm, ⟨77, _⟩ => ⟨S100000x64, .f32⟩
  | .hbm, ⟨78, _⟩ => ⟨S100000x1, .i1⟩
  | .hbm, ⟨79, _⟩ => ⟨S_, .f32⟩
  | .hbm, ⟨80, _⟩ => ⟨S100000x64, .i1⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000, .f32⟩
  | .hbm, ⟨95, _⟩ => ⟨S100000x1, .f32⟩
  | .hbm, ⟨96, _⟩ => ⟨S100000x1, .f32⟩
  | .hbm, ⟨97, _⟩ => ⟨S100000x64, .f32⟩
  | .hbm, ⟨98, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_c_2 : Ref sig .tc := ⟨.hbm, 55, rfl⟩
abbrev main_v34 : Ref sig .tc := ⟨.hbm, 56, rfl⟩
abbrev main_v35 : Ref sig .tc := ⟨.hbm, 57, rfl⟩
abbrev main_c_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_cst_5 : Ref sig .tc := ⟨.hbm, 79, rfl⟩
abbrev main_call2_v0 : Ref sig .tc := ⟨.hbm, 80, rfl⟩
abbrev main_call2_v1 : Ref sig .tc := ⟨.hbm, 81, rfl⟩
abbrev main_v54 : Ref sig .tc := ⟨.hbm, 82, rfl⟩
abbrev main_v55 : Ref sig .tc := ⟨.hbm, 83, rfl⟩
abbrev main_call3_cst : Ref sig .tc := ⟨.hbm, 84, rfl⟩
abbrev main_call3_v0 : Ref sig .tc := ⟨.hbm, 85, rfl⟩
abbrev main_call3_cst_0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_v6 : Ref sig .tc := ⟨.hbm, 92, rfl⟩
abbrev main_call3_cst_1 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_v56 : Ref sig .tc := ⟨.hbm, 98, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run with its final buffer contents named. The program is four kernel regions among two
  stretches of host operations; the contents of the TensorCore's buffers at each boundary are a fold from the launch
  memory (a stretch applies its operations, a region replaces its arrays by what its write-backs leave). The run
  theorem for such a chain of segments gives: every weakly fair execution terminates without a fault in a state whose
  every unscoped buffer holds the last boundary's contents. That post is kept whole here, so that the two result
  buffers can be read from it as well as the arguments.
-/
import proofs.«163101_j66872640799058_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with every unscoped buffer of
    every core at the contents the fold through the program's segments ends with. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.RunValue

end
-- ==== Proof.RefStages.lean ====
/-
  The reference program's two results as the stage functions of its arguments. The program is a straight line of 84 host
  operations; the contents of its buffers after the line are the fold of the operations' results over the launch
  contents. The line is cut at the seven stages of the network — the first matrix product; the first aggregation over the
  edges; bias, normalisation and rectifier; the second product; the second aggregation; bias and the merge with the
  previous embedding; the row-wise log-softmax — and the fold is read one stage at a time: each stage's result buffer
  holds that stage's function of the buffers the stage reads, and those hold the earlier stages' functions of the
  arguments, which no operation writes. Reading stage by stage keeps every comparison of terms one stage deep.
-/
import proofs.«163101_j66872640799058_1_alg».proof.Proof.RefRead

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents moved to a typed reference's buffer type and back are unchanged (the transport is along one equation of
    types, there and back). -/
theorem ofBuf_toBuf {T : BufTy} (x : TRef sig T) (v : T.Contents (Elt F)) : x.ofBuf (x.toBuf v) = v := by
  obtain ⟨r, rfl, _, _⟩ := x; rfl

/-- Operations 1 … 1 of the reference's @main. -/
abbrev s1 : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 2 … 17 of the reference's @main. -/
abbrev s2 : List (HloOp τ sig (Elt F)) :=
  [ nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg1 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg1 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg1 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_v0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v8 (broadcastInDim S1600000x1 ![0] bcast_S1600000_S1600000x1_0 : (⟨S1600000, .f32⟩ : BufTy).Contents (Elt F) → (⟨S1600000x1, .f32⟩ : BufTy).Contents (Elt F)),
    unary main_v8 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v9 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg2 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 18 … 39 of the reference's @main. -/
abbrev s3 : List (HloOp τ sig (Elt F)) :=
  [ unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    unary main_arg8 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (subf : (⟨S100000x128, .f32⟩ : BufTy).Contents (Elt F) → (⟨S100000x128, .f32⟩ : BufTy).Contents (Elt F) → (⟨S100000x128, .f32⟩ : BufTy).Contents (Elt F)),
    unary main_arg6 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v21 main_v19 main_v22 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3727C5AC#32),
    unary main_cst_1 main_v23 (broadcastInDim S128 ![] bcast_S_S128 : (⟨S_, .f32⟩ : BufTy).Contents (Elt F) → (⟨S128, .f32⟩ : BufTy).Contents (Elt F)),
    binary main_arg9 main_v23 main_v24 (addf : (⟨S128, .f32⟩ : BufTy).Contents (Elt F) → (⟨S128, .f32⟩ : BufTy).Contents (Elt F) → (⟨S128, .f32⟩ : BufTy).Contents (Elt F)),
    unary main_v24 main_v25 (Host.rsqrt : (⟨S128, .f32⟩ : BufTy).Contents (Elt F) → (⟨S128, .f32⟩ : BufTy).Contents (Elt F)),
    unary main_v25 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v22 main_v27 main_v28 (mulf : (⟨S100000x128, .f32⟩ : BufTy).Contents (Elt F) → (⟨S100000x128, .f32⟩ : BufTy).Contents (Elt F) → (⟨S100000x128, .f32⟩ : BufTy).Contents (Elt F)),
    unary main_arg7 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v28 main_v30 main_v31 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v31) (TRef.of (T := ⟨S100000x128, .f32⟩) main_call0_v0) (TRef.of (T := ⟨S100000x128, .f32⟩) main_v32) maximumf ]

/-- Operations 40 … 40 of the reference's @main. -/
abbrev s4 : List (HloOp τ sig (Elt F)) :=
  [ binary main_v32 main_arg10 main_v33 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Operations 41 … 56 of the reference's @main. -/
abbrev s5 : List (HloOp τ sig (Elt F)) :=
  [ nullary main_c_2 (constantI S_ 32 0#32),
    unary main_c_2 main_v34 (broadcastInDim S1600000 ![] bcast_S_S1600000 : (⟨S_, .i32⟩ : BufTy).Contents (Elt F) → (⟨S1600000, .i32⟩ : BufTy).Contents (Elt F)),
    binary main_arg1 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v36 (broadcastInDim S1600000 ![] bcast_S_S1600000 : (⟨S_, .i32⟩ : BufTy).Contents (Elt F) → (⟨S1600000, .i32⟩ : BufTy).Contents (Elt F)),
    binary main_arg1 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_arg1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_v33 main_v39 main_v40 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg3 main_v41 (broadcastInDim S1600000x1 ![0] bcast_S1600000_S1600000x1_0 : (⟨S1600000, .f32⟩ : BufTy).Contents (Elt F) → (⟨S1600000x1, .f32⟩ : BufTy).Contents (Elt F)),
    unary main_v41 main_v42 (broadcastInDim S1600000x64 ![0, 1] bcast_S1600000x1_S1600000x64_0_1 : (⟨S1600000x1, .f32⟩ : BufTy).Contents (Elt F) → (⟨S1600000x64, .f32⟩ : BufTy).Contents (Elt F)),
    binary main_v40 main_v42 main_v43 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v44 (broadcastInDim S100000x64 ![] bcast_S_S100000x64 : (⟨S_, .f32⟩ : BufTy).Contents (Elt F) → (⟨S100000x64, .f32⟩ : BufTy).Contents (Elt F)),
    unary main_arg2 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Operations 57 … 69 of the reference's @main. -/
abbrev s6 : List (HloOp τ sig (Elt F)) :=
  [ unary main_arg11 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    unary main_arg13 main_v50 (noti : (⟨S100000, .i1⟩ : BufTy).Contents (Elt F) → (⟨S100000, .i1⟩ : BufTy).Contents (Elt F)),
    unary main_v50 main_v51 (broadcastInDim S100000x1 ![0] bcast_S100000_S100000x1_0 : (⟨S100000, .i1⟩ : BufTy).Contents (Elt F) → (⟨S100000x1, .i1⟩ : BufTy).Contents (Elt F)),
    TRef.unary (TRef.of (T := ⟨S100000x1, .i1⟩) main_v51) (TRef.of (T := ⟨S100000x64, .i1⟩) main_call1_v0) (broadcastInDim S100000x64 ![0, 1] bcast_S100000x1_S100000x64_0_1),
    TRef.ternary (TRef.of (T := ⟨S100000x64, .i1⟩) main_call1_v0) (TRef.of (T := ⟨S100000x64, .f32⟩) main_arg12) (TRef.of (T := ⟨S100000x64, .f32⟩) main_v49) (TRef.of (T := ⟨S100000x64, .f32⟩) main_v52) select,
    unary main_arg14 main_v53 (broadcastInDim S100000x1 ![0] bcast_S100000_S100000x1_0 : (⟨S100000, .i1⟩ : BufTy).Contents (Elt F) → (⟨S100000x1, .i1⟩ : BufTy).Contents (Elt F)),
    nullary main_cst_5 (constant S_ .f32 0x00000000#32),
    TRef.unary (TRef.of (T := ⟨S100000x1, .i1⟩) main_v53) (TRef.of (T := ⟨S100000x64, .i1⟩) main_call2_v0) (broadcastInDim S100000x64 ![0, 1] bcast_S100000x1_S100000x64_0_1),
    TRef.unary (TRef.of (T := ⟨S_, .f32⟩) main_cst_5) (TRef.of (T := ⟨S100000x64, .f32⟩) main_call2_v1) (broadcastInDim S100000x64 ![] bcast_S_S100000x64),
    TRef.ternary (TRef.of (T := ⟨S100000x64, .i1⟩) main_call2_v0) (TRef.of (T := ⟨S100000x64, .f32⟩) main_v49) (TRef.of (T := ⟨S100000x64, .f32⟩) main_call2_v1) (TRef.of (T := ⟨S100000x64, .f32⟩) main_v54) select,
    binary main_v52 main_v54 main_v55 (addf : (⟨S100000x64, .f32⟩ : BufTy).Contents (Elt F) → (⟨S100000x64, .f32⟩ : BufTy).Contents (Elt F) → (⟨S100000x64, .f32⟩ : BufTy).Contents (Elt F)) ]

/-- Operations 70 … 84 of the reference's @main. -/
abbrev s7 : List (HloOp τ sig (Elt F)) :=
  [ TRef.nullary (TRef.of (T := ⟨S_, .f32⟩) main_call3_cst) (constant S_ .f32 0xFF800000#32),
    TRef.binary (TRef.of (T := ⟨S100000x64, .f32⟩) main_v55) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v55) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v56) subf ]

/-- The program's line is its seven stages in order. -/
theorem ops_split : (ops : List (HloOp τ sig (Elt F))) = s1 ++ (s2 ++ (s3 ++ (s4 ++ (s5 ++ (s6 ++ s7))))) := rfl

set_option maxHeartbeats 4000000 in
/-- After the whole line the buffer of the merged rows holds the merge stage's function of the arguments, and the buffer of
    the log-softmax holds the last stage's. -/
theorem results (m : (ℓ : Loc nD τ sig) → Buf (Elt F) ℓ) (d : Dev nD) :
    after ops (launchContents m d) (Proc.devRef .tc main_v55) = val_main_v55 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14))
    ∧ after ops (launchContents m d) (Proc.devRef .tc main_v56) = val_main_v56 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
  rw [ops_split]; simp only [after_append]
  generalize hV : launchContents m d = V0
  have a0 : V0 (Proc.devRef .tc main_arg0) = (m ((d.tc : Thread nD τ).loc main_arg0)) := by subst hV; rfl
  have a1 : V0 (Proc.devRef .tc main_arg1) = (m ((d.tc : Thread nD τ).loc main_arg1)) := by subst hV; rfl
  have a2 : V0 (Proc.devRef .tc main_arg2) = (m ((d.tc : Thread nD τ).loc main_arg2)) := by subst hV; rfl
  have a3 : V0 (Proc.devRef .tc main_arg3) = (m ((d.tc : Thread nD τ).loc main_arg3)) := by subst hV; rfl
  have a4 : V0 (Proc.devRef .tc main_arg4) = (m ((d.tc : Thread nD τ).loc main_arg4)) := by subst hV; rfl
  have a5 : V0 (Proc.devRef .tc main_arg5) = (m ((d.tc : Thread nD τ).loc main_arg5)) := by subst hV; rfl
  have a6 : V0 (Proc.devRef .tc main_arg6) = (m ((d.tc : Thread nD τ).loc main_arg6)) := by subst hV; rfl
  have a7 : V0 (Proc.devRef .tc main_arg7) = (m ((d.tc : Thread nD τ).loc main_arg7)) := by subst hV; rfl
  have a8 : V0 (Proc.devRef .tc main_arg8) = (m ((d.tc : Thread nD τ).loc main_arg8)) := by subst hV; rfl
  have a9 : V0 (Proc.devRef .tc main_arg9) = (m ((d.tc : Thread nD τ).loc main_arg9)) := by subst hV; rfl
  have a10 : V0 (Proc.devRef .tc main_arg10) = (m ((d.tc : Thread nD τ).loc main_arg10)) := by subst hV; rfl
  have a11 : V0 (Proc.devRef .tc main_arg11) = (m ((d.tc : Thread nD τ).loc main_arg11)) := by subst hV; rfl
  have a12 : V0 (Proc.devRef .tc main_arg12) = (m ((d.tc : Thread nD τ).loc main_arg12)) := by subst hV; rfl
  have a13 : V0 (Proc.devRef .tc main_arg13) = (m ((d.tc : Thread nD τ).loc main_arg13)) := by subst hV; rfl
  have a14 : V0 (Proc.devRef .tc main_arg14) = (m ((d.tc : Thread nD τ).loc main_arg14)) := by subst hV; rfl
  -- the first product
  have S1 : after s1 V0 (Proc.devRef .tc main_v0) = val_main_v0 (F := F) (m ((d.tc : Thread nD τ).loc main_arg0)) (m ((d.tc : Thread nD τ).loc main_arg4)) := by
    after_results_simp; rw [a0, a4]; rfl
  have b1 : after s1 V0 (Proc.devRef .tc main_arg1) = (m ((d.tc : Thread nD τ).loc main_arg1)) := by after_results_simp <;> exact a1
  have b2 : after s1 V0 (Proc.devRef .tc main_arg2) = (m ((d.tc : Thread nD τ).loc main_arg2)) := by after_results_simp <;> exact a2
  have b3 : after s1 V0 (Proc.devRef .tc main_arg3) = (m ((d.tc : Thread nD τ).loc main_arg3)) := by after_results_simp <;> exact a3
  have b5 : after s1 V0 (Proc.devRef .tc main_arg5) = (m ((d.tc : Thread nD τ).loc main_arg5)) := by after_results_simp <;> exact a5
  have b6 : after s1 V0 (Proc.devRef .tc main_arg6) = (m ((d.tc : Thread nD τ).loc main_arg6)) := by after_results_simp <;> exact a6
  have b7 : after s1 V0 (Proc.devRef .tc main_arg7) = (m ((d.tc : Thread nD τ).loc main_arg7)) := by after_results_simp <;> exact a7
  have b8 : after s1 V0 (Proc.devRef .tc main_arg8) = (m ((d.tc : Thread nD τ).loc main_arg8)) := by after_results_simp <;> exact a8
  have b9 : after s1 V0 (Proc.devRef .tc main_arg9) = (m ((d.tc : Thread nD τ).loc main_arg9)) := by after_results_simp <;> exact a9
  have b10 : after s1 V0 (Proc.devRef .tc main_arg10) = (m ((d.tc : Thread nD τ).loc main_arg10)) := by after_results_simp <;> exact a10
  have b11 : after s1 V0 (Proc.devRef .tc main_arg11) = (m ((d.tc : Thread nD τ).loc main_arg11)) := by after_results_simp <;> exact a11
  have b12 : after s1 V0 (Proc.devRef .tc main_arg12) = (m ((d.tc : Thread nD τ).loc main_arg12)) := by after_results_simp <;> exact a12
  have b13 : after s1 V0 (Proc.devRef .tc main_arg13) = (m ((d.tc : Thread nD τ).loc main_arg13)) := by after_results_simp <;> exact a13
  have b14 : after s1 V0 (Proc.devRef .tc main_arg14) = (m ((d.tc : Thread nD τ).loc main_arg14)) := by after_results_simp <;> exact a14
  generalize after s1 V0 = V1 at *
  -- the first aggregation over the edges
  have S2 : after s2 V1 (Proc.devRef .tc main_v13) = val_main_v13 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) := by
    after_results_simp; rw [S1, b1, b2, b3]; rfl
  have c1 : after s2 V1 (Proc.devRef .tc main_arg1) = (m ((d.tc : Thread nD τ).loc main_arg1)) := by after_results_simp <;> exact b1
  have c2 : after s2 V1 (Proc.devRef .tc main_arg2) = (m ((d.tc : Thread nD τ).loc main_arg2)) := by after_results_simp <;> exact b2
  have c3 : after s2 V1 (Proc.devRef .tc main_arg3) = (m ((d.tc : Thread nD τ).loc main_arg3)) := by after_results_simp <;> exact b3
  have c5 : after s2 V1 (Proc.devRef .tc main_arg5) = (m ((d.tc : Thread nD τ).loc main_arg5)) := by after_results_simp <;> exact b5
  have c6 : after s2 V1 (Proc.devRef .tc main_arg6) = (m ((d.tc : Thread nD τ).loc main_arg6)) := by after_results_simp <;> exact b6
  have c7 : after s2 V1 (Proc.devRef .tc main_arg7) = (m ((d.tc : Thread nD τ).loc main_arg7)) := by after_results_simp <;> exact b7
  have c8 : after s2 V1 (Proc.devRef .tc main_arg8) = (m ((d.tc : Thread nD τ).loc main_arg8)) := by after_results_simp <;> exact b8
  have c9 : after s2 V1 (Proc.devRef .tc main_arg9) = (m ((d.tc : Thread nD τ).loc main_arg9)) := by after_results_simp <;> exact b9
  have c10 : after s2 V1 (Proc.devRef .tc main_arg10) = (m ((d.tc : Thread nD τ).loc main_arg10)) := by after_results_simp <;> exact b10
  have c11 : after s2 V1 (Proc.devRef .tc main_arg11) = (m ((d.tc : Thread nD τ).loc main_arg11)) := by after_results_simp <;> exact b11
  have c12 : after s2 V1 (Proc.devRef .tc main_arg12) = (m ((d.tc : Thread nD τ).loc main_arg12)) := by after_results_simp <;> exact b12
  have c13 : after s2 V1 (Proc.devRef .tc main_arg13) = (m ((d.tc : Thread nD τ).loc main_arg13)) := by after_results_simp <;> exact b13
  have c14 : after s2 V1 (Proc.devRef .tc main_arg14) = (m ((d.tc : Thread nD τ).loc main_arg14)) := by after_results_simp <;> exact b14
  generalize after s2 V1 = V2 at *
  -- bias, normalisation, rectifier
  have S3 : after s3 V2 (Proc.devRef .tc main_v32) = val_main_v32 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) := by
    after_results_simp; rw [S2, c5, c6, c7, c8, c9]; rfl
  have e1 : after s3 V2 (Proc.devRef .tc main_arg1) = (m ((d.tc : Thread nD τ).loc main_arg1)) := by after_results_simp <;> exact c1
  have e2 : after s3 V2 (Proc.devRef .tc main_arg2) = (m ((d.tc : Thread nD τ).loc main_arg2)) := by after_results_simp <;> exact c2
  have e3 : after s3 V2 (Proc.devRef .tc main_arg3) = (m ((d.tc : Thread nD τ).loc main_arg3)) := by after_results_simp <;> exact c3
  have e10 : after s3 V2 (Proc.devRef .tc main_arg10) = (m ((d.tc : Thread nD τ).loc main_arg10)) := by after_results_simp <;> exact c10
  have e11 : after s3 V2 (Proc.devRef .tc main_arg11) = (m ((d.tc : Thread nD τ).loc main_arg11)) := by after_results_simp <;> exact c11
  have e12 : after s3 V2 (Proc.devRef .tc main_arg12) = (m ((d.tc : Thread nD τ).loc main_arg12)) := by after_results_simp <;> exact c12
  have e13 : after s3 V2 (Proc.devRef .tc main_arg13) = (m ((d.tc : Thread nD τ).loc main_arg13)) := by after_results_simp <;> exact c13
  have e14 : after s3 V2 (Proc.devRef .tc main_arg14) = (m ((d.tc : Thread nD τ).loc main_arg14)) := by after_results_simp <;> exact c14
  generalize after s3 V2 = V3 at *
  -- the second product
  have S4 : after s4 V3 (Proc.devRef .tc main_v33) = val_main_v33 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
    after_results_simp; rw [S3, e10]; rfl
  have f1 : after s4 V3 (Proc.devRef .tc main_arg1) = (m ((d.tc : Thread nD τ).loc main_arg1)) := by after_results_simp <;> exact e1
  have f2 : after s4 V3 (Proc.devRef .tc main_arg2) = (m ((d.tc : Thread nD τ).loc main_arg2)) := by after_results_simp <;> exact e2
  have f3 : after s4 V3 (Proc.devRef .tc main_arg3) = (m ((d.tc : Thread nD τ).loc main_arg3)) := by after_results_simp <;> exact e3
  have f11 : after s4 V3 (Proc.devRef .tc main_arg11) = (m ((d.tc : Thread nD τ).loc main_arg11)) := by after_results_simp <;> exact e11
  have f12 : after s4 V3 (Proc.devRef .tc main_arg12) = (m ((d.tc : Thread nD τ).loc main_arg12)) := by after_results_simp <;> exact e12
  have f13 : after s4 V3 (Proc.devRef .tc main_arg13) = (m ((d.tc : Thread nD τ).loc main_arg13)) := by after_results_simp <;> exact e13
  have f14 : after s4 V3 (Proc.devRef .tc main_arg14) = (m ((d.tc : Thread nD τ).loc main_arg14)) := by after_results_simp <;> exact e14
  generalize after s4 V3 = V4 at *
  -- the second aggregation
  have S5 : after s5 V4 (Proc.devRef .tc main_v46) = val_main_v46 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
    after_results_simp; rw [S4, f1, f2, f3]; rfl
  have g11 : after s5 V4 (Proc.devRef .tc main_arg11) = (m ((d.tc : Thread nD τ).loc main_arg11)) := by after_results_simp <;> exact f11
  have g12 : after s5 V4 (Proc.devRef .tc main_arg12) = (m ((d.tc : Thread nD τ).loc main_arg12)) := by after_results_simp <;> exact f12
  have g13 : after s5 V4 (Proc.devRef .tc main_arg13) = (m ((d.tc : Thread nD τ).loc main_arg13)) := by after_results_simp <;> exact f13
  have g14 : after s5 V4 (Proc.devRef .tc main_arg14) = (m ((d.tc : Thread nD τ).loc main_arg14)) := by after_results_simp <;> exact f14
  generalize after s5 V4 = V5 at *
  -- bias and the merge with the previous embedding
  have S6 : after s6 V5 (Proc.devRef .tc main_v55) = val_main_v55 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
    after_results_simp; rw [S5, g11, g12, g13, g14]; rfl
  generalize after s6 V5 = V6 at *
  -- the row-wise log-softmax; the merged rows stay
  have S7 : after s7 V6 (Proc.devRef .tc main_v56) = val_main_v56 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
    after_results_simp; rw [S6]; simp only [ofBuf_toBuf]; rfl
  have K7 : after s7 V6 (Proc.devRef .tc main_v55) = val_main_v55 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) := by
    after_results_simp <;> exact S6
  exact ⟨K7, S7⟩

/-- No operation of the line writes argument 0's buffer: after the line it holds its launch contents. -/
theorem kept_main_arg0 (m : (ℓ : Loc nD τ sig) → Buf (Elt F) ℓ) (d : Dev nD) :
    after ops (launchContents m d) (Proc.devRef .tc main_arg0) = m ((d.tc : Thread nD τ).loc main_arg0) := by
  after_results_simp <;> rfl

/-- No operation of the line writes argument 1's buffer: after the line it holds its launch contents. -/
theorem kept_main_arg1 (m : (ℓ : Loc nD τ sig) → Buf (Elt F) ℓ) (d : Dev nD) :
    after ops (launchContents m d) (Proc.devRef .tc main_arg1) = m ((d.tc : Thread nD τ).loc main_arg1) := by
  after_results_simp <;> rfl

/-- No operation of the line writes argument 2's buffer: after the line it holds its launch contents. -/
theorem kept_main_arg2 (m : (ℓ : Loc nD τ sig) → Buf (Elt F) ℓ) (d : Dev nD) :
    after ops (launchContents m d) (Proc.devRef .tc main_arg2) = m ((d.tc : Thread nD τ).loc main_arg2) := by
  after_results_simp <;> rfl

/-- No operation of the line writes argument 3's buffer: after the line it holds its launch contents. -/
theorem kept_main_arg3 (m : (ℓ : Loc nD τ sig) → Buf (Elt F) ℓ) (d : Dev nD) :
    after ops (launchContents m d) (Proc.devRef .tc main_arg3) = m ((d.tc : Thread nD τ).loc main_arg3) := by
  after_results_simp <;> rfl

/-- No operation of the line writes argument 4's buffer: after the line it holds its launch contents. -/
theorem kept_main_arg4 (m : (ℓ : Loc nD τ sig) → Buf (Elt F) ℓ) (d : Dev nD) :
    after ops (launchContents m d) (Proc.devRef .tc main_arg4) = m ((d.tc : Thread nD τ).loc main_arg4) := by
  after_results_simp <;> rfl

/-- No operation of the line writes argument 5's buffer: after the line it holds its launch contents. -/
theorem kept_main_arg5 (m : (ℓ : Loc nD τ sig) → Buf (Elt F) ℓ) (d : Dev nD) :
    after ops (launchContents m d) (Proc.devRef .tc main_arg5) = m ((d.tc : Thread nD τ).loc main_arg5) := by
  after_results_simp <;> rfl

/-- No operation of the line writes argument 6's buffer: after the line it holds its launch contents. -/
theorem kept_main_arg6 (m : (ℓ : Loc nD τ sig) → Buf (Elt F) ℓ) (d : Dev nD) :
    after ops (launchContents m d) (Proc.devRef .tc main_arg6) = m ((d.tc : Thread nD τ).loc main_arg6) := by
  after_results_simp <;> rfl

/-- No operation of the line writes argument 7's buffer: after the line it holds its launch contents. -/
theorem kept_main_arg7 (m : (ℓ : Loc nD τ sig) → Buf (Elt F) ℓ) (d : Dev nD) :
    after ops (launchContents m d) (Proc.devRef .tc main_arg7) = m ((d.tc : Thread nD τ).loc main_arg7) := by
  after_results_simp <;> rfl

/-- No operation of the line writes argument 8's buffer: after the line it holds its launch contents. -/
theorem kept_main_arg8 (m : (ℓ : Loc nD τ sig) → Buf (Elt F) ℓ) (d : Dev nD) :
    after ops (launchContents m d) (Proc.devRef .tc main_arg8) = m ((d.tc : Thread nD τ).loc main_arg8) := by
  after_results_simp <;> rfl

/-- No operation of the line writes argument 9's buffer: after the line it holds its launch contents. -/
theorem kept_main_arg9 (m : (ℓ : Loc nD τ sig) → Buf (Elt F) ℓ) (d : Dev nD) :
    after ops (launchContents m d) (Proc.devRef .tc main_arg9) = m ((d.tc : Thread nD τ).loc main_arg9) := by
  after_results_simp <;> rfl

/-- No operation of the line writes argument 10's buffer: after the line it holds its launch contents. -/
theorem kept_main_arg10 (m : (ℓ : Loc nD τ sig) → Buf (Elt F) ℓ) (d : Dev nD) :
    after ops (launchContents m d) (Proc.devRef .tc main_arg10) = m ((d.tc : Thread nD τ).loc main_arg10) := by
  after_results_simp <;> rfl

/-- No operation of the line writes argument 11's buffer: after the line it holds its launch contents. -/
theorem kept_main_arg11 (m : (ℓ : Loc nD τ sig) → Buf (Elt F) ℓ) (d : Dev nD) :
    after ops (launchContents m d) (Proc.devRef .tc main_arg11) = m ((d.tc : Thread nD τ).loc main_arg11) := by
  after_results_simp <;> rfl

/-- No operation of the line writes argument 12's buffer: after the line it holds its launch contents. -/
theorem kept_main_arg12 (m : (ℓ : Loc nD τ sig) → Buf (Elt F) ℓ) (d : Dev nD) :
    after ops (launchContents m d) (Proc.devRef .tc main_arg12) = m ((d.tc : Thread nD τ).loc main_arg12) := by
  after_results_simp <;> rfl

/-- No operation of the line writes argument 13's buffer: after the line it holds its launch contents. -/
theorem kept_main_arg13 (m : (ℓ : Loc nD τ sig) → Buf (Elt F) ℓ) (d : Dev nD) :
    after ops (launchContents m d) (Proc.devRef .tc main_arg13) = m ((d.tc : Thread nD τ).loc main_arg13) := by
  after_results_simp <;> rfl

/-- No operation of the line writes argument 14's buffer: after the line it holds its launch contents. -/
theorem kept_main_arg14 (m : (ℓ : Loc nD τ sig) → Buf (Elt F) ℓ) (d : Dev nD) :
    after ops (launchContents m d) (Proc.devRef .tc main_arg14) = m ((d.tc : Thread nD τ).loc main_arg14) := by
  after_results_simp <;> rfl

end Cert.ReferenceIdeal.Stages

end
-- ==== Proof.Spec.lean ====
/-
  The functions both programs compute, entry by entry, on the extended reals.

  A graph layer here is: project every node's feature row by a weight matrix (`mmAt`), then, for every
  destination node, add up the projected rows of its incoming edges' source nodes scaled by the edge weights (the
  aggregation, which both programs carry out by the very same host operations and which is therefore never opened).
  Between the two layers sits a normalisation by running statistics followed by a rectifier (`bnReluAt` is the form with
  the scale and shift folded into two row vectors); after the second layer the rows outside the sensitive set are
  replaced by the previous embedding, the rows of the insensitive set get the fresh row added (`mergeAt` is the
  arithmetic form with the masks as the numbers 0 and 1), and each row is normalised by its log-sum-exp (`lsmAt`).
-/
import Idealize.ShloMosaic.PureOps.Ideal
import Idealize.ShloMosaic.Lib.ValueIdx

noncomputable section

namespace Cert.Spec

open Idealize.ShloMosaic Idealize.ShloMosaic.ValueIdx

/-- A two-axis array of extended reals of extents `n` by `p`. -/
abbrev Mat (n p : Nat) := (⟨2, ![n, p]⟩ : Shape).Idx → EReal

/-- `x` is a real number: neither infinity. -/
def IsReal (x : EReal) : Prop := ∃ r : ℝ, x = (r : EReal)

/-- Entry `(a, b)` of the matrix product `X · W`: the sum over the shared axis of the products. -/
def mmAt {n k p : Nat} (X : Mat n k) (W : Mat k p) (a : Fin n) (b : Fin p) : EReal :=
  ∑ q : Fin k, X (ix2 a q) * W (ix2 q b)

/-- The normalisation with folded scale `s` and shift `t`, then the rectifier, at one entry. -/
def bnReluAt (x s t : EReal) : EReal := max (x * s + t) 0

/-- The merge of a fresh entry `h` with the previous embedding's entry `e`, the two masks given as numbers
    (`sens`, `ins` each 0 or 1): `(1 - sens) · e + (1 - (1 - sens)) · h + ins · h`. -/
def mergeAt (h e sens ins : EReal) : EReal :=
  ((1 - sens) * e + (1 - (1 - sens)) * h) + ins * h

/-- The greatest entry of a row, from the bottom element. -/
def rowMax {p : Nat} (r : Fin p → EReal) : EReal := (Finset.univ : Finset (Fin p)).fold max ⊥ r

/-- The log-softmax of a row at entry `b`, in the form "entry minus (maximum plus log of the sum of the shifted
    exponentials)". -/
def lsmAt {p : Nat} (r : Fin p → EReal) (b : Fin p) : EReal :=
  r b - (rowMax r + Ideal.log (∑ c : Fin p, Ideal.exp (r c - rowMax r)))

end Cert.Spec

end
-- ==== Proof.MatmulRegion0.lean ====
/-
  The first projection of the node features, from row blocks to the whole array.

  The region multiplies the feature matrix (100000 rows of 128 features) by a 128-by-128 weight matrix, 4000 rows at a
  time: at grid point `t` it reads rows `4000·t … 4000·t + 3999` of the features and the whole weight matrix, and
  writes the same rows of the product. Entry `(p, q)` of a block's product is the sum over the shared axis of the
  products of the block's row `p` with the weights' column `q`; the 25 row blocks tile the 100000 rows, so the array
  the region leaves is the matrix product of the two arrays it found, entry by entry.
-/
import proofs.«163101_j66872640799058_1_alg».proof.Proof.Gen.KernelIdeal.Frame
import proofs.«163101_j66872640799058_1_alg».proof.Proof.Spec
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## One block's product at an entry -/

/-- On the features' side the product's row index is read off the output's row, the column off the shared axis. -/
theorem features_row_of_product (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- On the weights' side the column index is read off the output's column, the row off the shared axis. -/
theorem weights_col_of_product (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- Entry `(p, q)` of what the body stores for a block of 4000 feature rows `x` and the weights `w`: the rounding to
    the narrower format is the identity on the extended reals and the accumulator starts at zero, so it is the sum over
    the shared axis of `x p k · w k q`. -/
theorem block_product_entry (x : Vec Ideal S4000x128 .f32) (w : Vec Ideal S128x128 .f32) (p : Fin 4000) (q : Fin 128) :
    k0_pay1 (F := Ideal) x w (ix2 p q) = ∑ k : Fin 128, x (ix2 p k) * w (ix2 k q) := by
  unfold k0_pay1
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun a => Fin.ext (by
      match a with
      | ⟨0, _⟩ => exact features_row_of_product _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun a => Fin.ext (by
      match a with
      | ⟨0, _⟩ => exact (dot_S4000x128_S128x128_S4000x128_1_0_0_1_n_n.rhsIdx_val_of_single rfl _ _).trans hk
      | ⟨1, _⟩ => exact weights_col_of_product _ _)
  rw [truncf_apply, truncf_apply, el, er]

/-! ## The row blocks -/

/-- The body loads and stores its whole staging buffers: both offsets are zero. -/
theorem zero_offsets : (![0, 0] : Fin 2 → Nat) = fun _ => 0 := funext fun a => by fin_cases a <;> rfl

/-- The index maps over the 25 grid points: the features' and the product's block at point `t` is row block `t`
    (column block 0), the weights' block is always the one whole matrix. -/
theorem block_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row `p` of the features' block at point `t` is row `4000·t + p` of the features. -/
theorem features_block_entry (c : Dev nD) (t : Fin cfg0.N) (p : Fin 4000) (k : Fin 128) (r : Fin 100000)
    (hr : r.val = 4000 * t.val + p.val) :
    (iblk0 V c 0 t : Vec Ideal S4000x128 .f32) (ix2 p k)
      = (V c (Pipeline.arrRef spec0 0) : S100000x128.Idx → EReal) (ix2 r k) := by
  obtain ⟨e0, e1, -⟩ := block_index_maps t
  unfold iblk0
  rw [View.read_apply]
  show V c (Pipeline.arrRef spec0 0) _ = V c (Pipeline.arrRef spec0 0) _
  refine congrArg _ ?_
  funext a
  apply Fin.ext
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The weights' block at every point is the weight matrix. -/
theorem weights_block_entry (c : Dev nD) (t : Fin cfg0.N) (k : Fin 128) (q : Fin 128) :
    (iblk0 V c 1 t : Vec Ideal S128x128 .f32) (ix2 k q)
      = (V c (Pipeline.arrRef spec0 1) : S128x128.Idx → EReal) (ix2 k q) := by
  obtain ⟨-, -, e2, e3, -⟩ := block_index_maps t
  unfold iblk0
  rw [View.read_apply]
  show V c (Pipeline.arrRef spec0 1) _ = V c (Pipeline.arrRef spec0 1) _
  refine congrArg _ ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The array the region leaves, as one function of the two arrays it finds: their matrix product, entry by entry. -/
def projected (X : Spec.Mat 100000 128) (W : Spec.Mat 128 128) : S100000x128.Idx → EReal :=
  fun i => Spec.mmAt X W (i 0) (i 1)

/-- What grid point `t` writes back is row block `t` of the product: entry `(p, q)` of the stored block is the sum
    over the shared axis of the block's row `p` (the features' row `4000·t + p`) times the weights' column `q`, and
    the block's entry `(p, q)` sits in the array at row `4000·t + p`, column `q`. -/
theorem rows_written (c : Dev nD) (t : Fin cfg0.N) :
    (dat0 (F := Ideal) V c).flushed 2 t
      = ((cfg0.win 2).blk t).view.read (Elt Ideal)
          (projected (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  obtain ⟨-, -, -, -, e4, e5⟩ := block_index_maps t
  have ht : t.val < 25 := lt_of_lt_of_eq t.isLt N_0
  funext j
  obtain ⟨p, q, rfl⟩ : ∃ (p : Fin 4000) (q : Fin 128), j = ix2 p q := ⟨j 0, j 1, eq_ix2 j⟩
  have hp : p.val < 4000 := p.isLt
  -- the array's row and column of the block's entry (p, q)
  have hrow : ((((cfg0.win 2).blk t).view.emb (ix2 p q) : S100000x128.Idx) 0).val = 4000 * t.val + p.val := by
    show win0_2.index t (0 : Fin 2) * 4000 + 1 * p.val = _
    rw [e4]; omega
  have hcol : ((((cfg0.win 2).blk t).view.emb (ix2 p q) : S100000x128.Idx) 1).val = q.val := by
    show win0_2.index t (1 : Fin 2) * 128 + 1 * q.val = _
    rw [e5]; omega
  show k0_pay1 (iblk0 V c 0 t) (iblk0 V c 1 t) (ix2 p q)
    = projected (V c (Pipeline.arrRef spec0 0)) (V c (Pipeline.arrRef spec0 1)) (((cfg0.win 2).blk t).view.emb (ix2 p q))
  refine (block_product_entry _ _ p q).trans ?_
  unfold projected Spec.mmAt
  refine Finset.sum_congr rfl fun k _ => ?_
  rw [features_block_entry V c t p k _ hrow, weights_block_entry V c t k q]
  refine congrArg _ (congrArg _ ?_)
  funext a
  apply Fin.ext
  match a with
  | ⟨0, _⟩ => rfl
  | ⟨1, _⟩ => exact hcol.symm

/-- An index of the product array is in point `t`'s block iff each coordinate is in the block's range on its axis. -/
theorem mem_row_block (t : Fin cfg0.N) (i : S100000x128.Idx) :
    i ∈ ((cfg0.win 2).blk t).view.set
      ↔ ∀ a : Fin 2, win0_2.index t a * S4000x128.size a ≤ (i a).val
          ∧ (i a).val < win0_2.index t a * S4000x128.size a + S4000x128.size a := by
  show i ∈ ((View.whole main_v0).slice (win0_2.rect t)).set ↔ _
  rw [View.set_slice_whole, Rect.mem_set_unit]
  exact Iff.rfl

/-- The 25 row blocks tile the 100000 rows: row `r` is in the block of point `r / 4000`. -/
theorem rows_covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  have hlt : (i 0).val / 4000 < cfg0.N := by rw [hN]; omega
  obtain ⟨-, -, -, -, e4, e5⟩ := block_index_maps ⟨(i 0).val / 4000, hlt⟩
  refine ⟨⟨(i 0).val / 4000, hlt⟩, flush0_2 _, ?_⟩
  rw [mem_row_block]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hlt⟩ (1 : Fin 2) * 128 ≤ (i 1).val
      ∧ (i 1).val < win0_2.index ⟨(i 0).val / 4000, hlt⟩ (1 : Fin 2) * 128 + 128
    rw [e5]; omega

/-- The array the region leaves is the product of the two arrays it finds. -/
theorem product_array (c : Dev nD) :
    (dat0 (F := Ideal) V c).arrAt 2 cfg0.N
      = projected (V c (Pipeline.arrRef spec0 0)) (V c (Pipeline.arrRef spec0 1)) :=
  (dat0 (F := Ideal) V c).arrAt_eq_of_cover 2 _ (fun t _ => rows_written V c t) rows_covered

/-- Entry `(a, b)` of the array the first projection leaves: the sum over the 128 features of the features' row `a`
    times the weights' column `b`, the two arrays as the region finds them. -/
theorem xw_region0 (c : Dev nD) (a : Fin 100000) (b : Fin 128) :
    (dat0 (F := Ideal) V c).arrAt 2 cfg0.N (ix2 a b)
      = Spec.mmAt (V c (Pipeline.arrRef spec0 0)) (V c (Pipeline.arrRef spec0 1)) a b := by
  rw [product_array]
  rfl

end Cert.KernelIdeal.Blocks

end
-- ==== Proof.MatmulRegion2.lean ====
/-
  The second projection, of the hidden rows, from row blocks to the whole array.

  The region multiplies the hidden matrix (100000 rows of 128 entries, what the normalisation and the rectifier left)
  by a 128-by-64 weight matrix, 4000 rows at a time: at grid point `t` it reads rows `4000·t … 4000·t + 3999` of the
  hidden matrix and the whole weight matrix, and writes the same rows of the product. Entry `(p, q)` of a block's
  product is the sum over the shared axis of the products of the block's row `p` with the weights' column `q`; the 25
  row blocks tile the 100000 rows, so the array the region leaves is the matrix product of the two arrays it found,
  entry by entry.
-/
import proofs.«163101_j66872640799058_1_alg».proof.Proof.Gen.KernelIdeal.Frame
import proofs.«163101_j66872640799058_1_alg».proof.Proof.Spec
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## One block's product at an entry -/

/-- On the hidden matrix's side the product's row index is read off the output's row, the column off the shared
    axis. -/
theorem hidden_row_of_product (i : S4000x64.Idx) (k : dot_S4000x128_S128x64_S4000x64_1_0_0_1_n_n.contr.Idx) :
    (dot_S4000x128_S128x64_S4000x64_1_0_0_1_n_n.lhsIdx i k 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- On the second weights' side the column index is read off the output's column, the row off the shared axis. -/
theorem out_weights_col_of_product (i : S4000x64.Idx) (k : dot_S4000x128_S128x64_S4000x64_1_0_0_1_n_n.contr.Idx) :
    (dot_S4000x128_S128x64_S4000x64_1_0_0_1_n_n.rhsIdx i k 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- Entry `(p, q)` of what the body stores for a block of 4000 hidden rows `x` and the weights `w`: the reshape to
    the same shape and the rounding to the narrower format are the identity on the extended reals and the accumulator
    starts at zero, so it is the sum over the shared axis of `x p k · w k q`. -/
theorem hidden_block_product_entry (x : Vec Ideal S4000x128 .f32) (w : Vec Ideal S128x64 .f32) (p : Fin 4000) (q : Fin 64) :
    k2_pay1 (F := Ideal) x w (ix2 p q) = ∑ k : Fin 128, x (ix2 p k) * w (ix2 k q) := by
  unfold k2_pay1
  simp only [matmul]
  rw [Ideal.matmul_constant_zero_apply,
    ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q)
      ((contrEquiv1 dot_S4000x128_S128x64_S4000x64_1_0_0_1_n_n 128 rfl rfl).symm k) = ix2 p k :=
    funext fun a => Fin.ext (by
      match a with
      | ⟨0, _⟩ => exact hidden_row_of_product _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p q)
      ((contrEquiv1 dot_S4000x128_S128x64_S4000x64_1_0_0_1_n_n 128 rfl rfl).symm k) = ix2 k q :=
    funext fun a => Fin.ext (by
      match a with
      | ⟨0, _⟩ => exact (dot_S4000x128_S128x64_S4000x64_1_0_0_1_n_n.rhsIdx_val_of_single rfl _ _).trans hk
      | ⟨1, _⟩ => exact out_weights_col_of_product _ _)
  rw [truncf_apply, truncf_apply, shapeCast_self, el, er]

/-! ## The row blocks -/

/-- The body loads and stores its whole staging buffers: both offsets are zero. -/
theorem hidden_zero_offsets : (![0, 0] : Fin 2 → Nat) = fun _ => 0 := funext fun a => by fin_cases a <;> rfl

/-- The index maps over the 25 grid points: the hidden matrix's and the product's block at point `t` is row block `t`
    (column block 0), the weights' block is always the one whole matrix. -/
theorem hidden_block_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Row `p` of the hidden matrix's block at point `t` is row `4000·t + p` of the hidden matrix. -/
theorem hidden_block_entry (c : Dev nD) (t : Fin cfg2.N) (p : Fin 4000) (k : Fin 128) (r : Fin 100000)
    (hr : r.val = 4000 * t.val + p.val) :
    (iblk2 V c 0 t : Vec Ideal S4000x128 .f32) (ix2 p k)
      = (V c (Pipeline.arrRef spec2 0) : S100000x128.Idx → EReal) (ix2 r k) := by
  obtain ⟨e0, e1, -⟩ := hidden_block_index_maps t
  unfold iblk2
  rw [View.read_apply]
  show V c (Pipeline.arrRef spec2 0) _ = V c (Pipeline.arrRef spec2 0) _
  refine congrArg _ ?_
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- The second weights' block at every point is the weight matrix. -/
theorem out_weights_block_entry (c : Dev nD) (t : Fin cfg2.N) (k : Fin 128) (q : Fin 64) :
    (iblk2 V c 1 t : Vec Ideal S128x64 .f32) (ix2 k q)
      = (V c (Pipeline.arrRef spec2 1) : S128x64.Idx → EReal) (ix2 k q) := by
  obtain ⟨-, -, e2, e3, -⟩ := hidden_block_index_maps t
  unfold iblk2
  rw [View.read_apply]
  show V c (Pipeline.arrRef spec2 1) _ = V c (Pipeline.arrRef spec2 1) _
  refine congrArg _ ?_
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- The array the region leaves, as one function of the two arrays it finds: their matrix product, entry by entry. -/
def projectedHidden (X : Spec.Mat 100000 128) (W : Spec.Mat 128 64) : S100000x64.Idx → EReal :=
  fun i => Spec.mmAt X W (i 0) (i 1)

/-- What grid point `t` writes back is row block `t` of the product: entry `(p, q)` of the stored block is the sum
    over the shared axis of the block's row `p` (the hidden matrix's row `4000·t + p`) times the weights' column `q`,
    and the block's entry `(p, q)` sits in the array at row `4000·t + p`, column `q`. -/
theorem hidden_rows_written (c : Dev nD) (t : Fin cfg2.N) :
    (dat2 (F := Ideal) V c).flushed 2 t
      = ((cfg2.win 2).blk t).view.read (Elt Ideal)
          (projectedHidden (V c (Pipeline.arrRef spec2 0)) (V c (Pipeline.arrRef spec2 1))) := by
  show (cfg2.win 2).cut (grid2.coords t) ((dat2 V c).after 2 t) = _
  rw [after2_2]
  unfold out2_2
  rw [View.canon_unit_zero hidden_zero_offsets]
  simp only [View.ld_unit_zero (S := S4000x128) hidden_zero_offsets, View.ld_unit_zero (S := S128x64) hidden_zero_offsets]
  obtain ⟨-, -, -, -, e4, e5⟩ := hidden_block_index_maps t
  have ht : t.val < 25 := lt_of_lt_of_eq t.isLt N_2
  funext j
  obtain ⟨p, q, rfl⟩ : ∃ (p : Fin 4000) (q : Fin 64), j = ix2 p q := ⟨j 0, j 1, eq_ix2 j⟩
  have hp : p.val < 4000 := p.isLt
  -- the array's row and column of the block's entry (p, q)
  have hrow : ((((cfg2.win 2).blk t).view.emb (ix2 p q) : S100000x64.Idx) 0).val = 4000 * t.val + p.val := by
    show win2_2.index t (0 : Fin 2) * 4000 + 1 * p.val = _
    rw [e4]; omega
  have hcol : ((((cfg2.win 2).blk t).view.emb (ix2 p q) : S100000x64.Idx) 1).val = q.val := by
    show win2_2.index t (1 : Fin 2) * 64 + 1 * q.val = _
    rw [e5]; omega
  show k2_pay1 (iblk2 V c 0 t) (iblk2 V c 1 t) (ix2 p q)
    = projectedHidden (V c (Pipeline.arrRef spec2 0)) (V c (Pipeline.arrRef spec2 1)) (((cfg2.win 2).blk t).view.emb (ix2 p q))
  refine (hidden_block_product_entry _ _ p q).trans ?_
  unfold projectedHidden Spec.mmAt
  refine Finset.sum_congr rfl fun k _ => ?_
  rw [hidden_block_entry V c t p k _ hrow, out_weights_block_entry V c t k q]
  refine congrArg _ (congrArg _ ?_)
  funext a
  apply Fin.ext
  match a with
  | ⟨0, _⟩ => rfl
  | ⟨1, _⟩ => exact hcol.symm

/-- An index of the product array is in point `t`'s block iff each coordinate is in the block's range on its axis. -/
theorem mem_hidden_row_block (t : Fin cfg2.N) (i : S100000x64.Idx) :
    i ∈ ((cfg2.win 2).blk t).view.set
      ↔ ∀ a : Fin 2, win2_2.index t a * S4000x64.size a ≤ (i a).val
          ∧ (i a).val < win2_2.index t a * S4000x64.size a + S4000x64.size a := by
  show i ∈ ((View.whole main_v24).slice (win2_2.rect t)).set ↔ _
  rw [View.set_slice_whole, Rect.mem_set_unit]
  exact Iff.rfl

/-- The 25 row blocks tile the 100000 rows: row `r` is in the block of point `r / 4000`. -/
theorem hidden_rows_covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 25 := N_2
  have hlt : (i 0).val / 4000 < cfg2.N := by rw [hN]; omega
  obtain ⟨-, -, -, -, e4, e5⟩ := hidden_block_index_maps ⟨(i 0).val / 4000, hlt⟩
  refine ⟨⟨(i 0).val / 4000, hlt⟩, flush2_2 _, ?_⟩
  rw [mem_hidden_row_block]
  intro a
  match a with
  | ⟨0, _⟩ =>
    show win2_2.index ⟨(i 0).val / 4000, hlt⟩ (0 : Fin 2) * 4000 ≤ (i 0).val
      ∧ (i 0).val < win2_2.index ⟨(i 0).val / 4000, hlt⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, hlt⟩ (1 : Fin 2) * 64 ≤ (i 1).val
      ∧ (i 1).val < win2_2.index ⟨(i 0).val / 4000, hlt⟩ (1 : Fin 2) * 64 + 64
    rw [e5]; omega

/-- The array the region leaves is the product of the two arrays it finds. -/
theorem hidden_product_array (c : Dev nD) :
    (dat2 (F := Ideal) V c).arrAt 2 cfg2.N
      = projectedHidden (V c (Pipeline.arrRef spec2 0)) (V c (Pipeline.arrRef spec2 1)) :=
  (dat2 (F := Ideal) V c).arrAt_eq_of_cover 2 _ (fun t _ => hidden_rows_written V c t) hidden_rows_covered

/-- Entry `(a, b)` of the array the second projection leaves: the sum over the 128 hidden entries of the hidden
    matrix's row `a` times the weights' column `b`, the two arrays as the region finds them. -/
theorem hw_region2 (c : Dev nD) (a : Fin 100000) (b : Fin 64) :
    (dat2 (F := Ideal) V c).arrAt 2 cfg2.N (ix2 a b)
      = Spec.mmAt (V c (Pipeline.arrRef spec2 0)) (V c (Pipeline.arrRef spec2 1)) a b := by
  rw [hidden_product_array]
  rfl

end Cert.KernelIdeal.Blocks

end
-- ==== Proof.Region1.lean ====
/-
  The normalisation region: every entry of the aggregated first-layer rows is scaled by its column's folded scale,
  shifted by its column's folded shift and rectified. The region walks the 100000 rows in 25 blocks of 4000 rows; the
  scale and the shift are one row each, the same block at every point. Here: what one point computes at an entry of
  its block, that point `t` writes back rows 4000·t … 4000·t + 3999 of one whole-array function, that the 25 blocks
  cover the array, and hence what the array holds when the region is left.
-/
import proofs.«163101_j66872640799058_1_alg».proof.Proof.Gen.KernelIdeal.Frame
import proofs.«163101_j66872640799058_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

theorem no_offset1 : (![0, 0] : Fin 2 → Nat) = fun _ => 0 := funext fun a => by fin_cases a <;> rfl

/-- One point's result at entry `(p, q)` of its block: the block's entry times the scale row's entry `q`, plus the
    shift row's entry `q`, rectified. -/
theorem bn_point (v0 : Vec Ideal S4000x128 .f32) (v2 v6 : Vec Ideal S1x128 .f32) (p : Fin 4000) (q : Fin 128) :
    k1_pay1 v0 v2 v6 (ix2 p q)
      = Cert.Spec.bnReluAt (v0 (ix2 p q)) (v2 (ix2 (0 : Fin 1) q)) (v6 (ix2 (0 : Fin 1) q)) := by
  unfold k1_pay1 Cert.Spec.bnReluAt
  simp only [maximumf_apply, addf_apply, mulf_apply, shapeCast_self, broadcastTo_1b_ab_apply, broadcast_apply]
  rw [Ideal.ofBits_def, Ideal.ofBits_zero_f32]

/-- The array the region leaves, as one function of the arrays it finds: entry `(a, b)` is the aggregated entry times
    the scale row's entry `b`, plus the shift row's entry `b`, rectified. -/
def hArr (c : Dev nD) : S100000x128.Idx → EReal := fun i =>
  Cert.Spec.bnReluAt (V c (Pipeline.arrRef spec1 0) i) (V c (Pipeline.arrRef spec1 1) (ix2 (0 : Fin 1) (i 1)))
    (V c (Pipeline.arrRef spec1 2) (ix2 (0 : Fin 1) (i 1)))

/-- The block indices over the 25 points: the data and the output are at block row `t` of their one block column,
    the two row vectors at their only block. -/
theorem block_rows1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every block row is some point's. -/
theorem rows_onto1 : ∀ q0 : Fin 25, ∃ t : Fin cfg1.N, win1_3.index t = ![q0.val, 0] :=
  (by decide +kernel : ∀ q0 : Fin 25, ∃ t : Fin grid1.N, win1_3.index t = ![q0.val, 0])

/-- What point `t` writes back is block `t` of `hArr`. -/
theorem rows_written1 (c : Dev nD) (t : Fin cfg1.N) :
    (dat1 (F := Ideal) V c).flushed 3 t = ((cfg1.win 3).blk t).view.read (Elt Ideal) (hArr V c) := by
  show (cfg1.win 3).cut (grid1.coords t) ((dat1 V c).after 3 t) = _
  rw [after1_3]
  unfold out1_3
  rw [View.canon_unit_zero no_offset1]
  simp only [View.ld_unit_zero (S := S4000x128) no_offset1, View.ld_unit_zero (S := S1x128) no_offset1]
  obtain ⟨e0, e1, e2, e3, e4, e5, e6⟩ := block_rows1 t
  funext j
  obtain ⟨p, q, rfl⟩ : ∃ (p : Fin 4000) (q : Fin 128), j = ix2 p q := ⟨j 0, j 1, eq_ix2 j⟩
  refine (bn_point _ _ _ p q).trans ?_
  show Cert.Spec.bnReluAt (V c (Pipeline.arrRef spec1 0) (((cfg1.win 0).blk t).view.emb (ix2 p q)))
      (V c (Pipeline.arrRef spec1 1) (((cfg1.win 1).blk t).view.emb (ix2 (0 : Fin 1) q)))
      (V c (Pipeline.arrRef spec1 2) (((cfg1.win 2).blk t).view.emb (ix2 (0 : Fin 1) q)))
    = hArr V c (((cfg1.win 3).blk t).view.emb (ix2 p q))
  have h0 : ((cfg1.win 0).blk t).view.emb (ix2 p q) = ((cfg1.win 3).blk t).view.emb (ix2 p q) := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * q.val = win1_3.index t (1 : Fin 2) * 128 + 1 * q.val; omega
  have h1 : ((cfg1.win 1).blk t).view.emb (ix2 (0 : Fin 1) q) = ix2 (0 : Fin 1) ((((cfg1.win 3).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-- An index of the array is in point `t`'s block iff each coordinate is in the block's range on its axis. -/
theorem mem_rows1 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v23).slice (win1_3.rect t)).set ↔ _
  rw [View.set_slice_whole, Rect.mem_set_unit]
  exact Iff.rfl

/-- The 25 blocks of 4000 rows cover the array: row `r` is in the block of point `r / 4000`. -/
theorem rows_cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := rows_onto1 ⟨(i 0).val / 4000, by omega⟩
  have q0 : win1_3.index t (0 : Fin 2) = (i 0).val / 4000 := congrFun ht 0
  have q1 : win1_3.index t (1 : Fin 2) = 0 := congrFun ht 1
  refine ⟨t, flush1_3 t, ?_⟩
  rw [mem_rows1]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 128 ≤ (i 1).val ∧ (i 1).val < win1_3.index t (1 : Fin 2) * 128 + 128; omega

/-- The array when the region is left. -/
theorem h_array1 (c : Dev nD) : (dat1 (F := Ideal) V c).arrAt 3 cfg1.N = hArr V c :=
  (dat1 V c).arrAt_eq_of_cover 3 (hArr V c) (fun t _ => rows_written1 V c t) (rows_cover1)

end Cert.KernelIdeal.Blocks

end
-- ==== Proof.ArgsKept.lean ====
/-
  The argument arrays at the boundaries between the segments of the run.

  The run of the program is a fold through its segments: a region leaves every buffer it does not own as it found
  it, and a stretch of host operations leaves every buffer it does not write as it found it.  An argument array that
  no region owns and no host operation writes up to some boundary therefore still holds, at that boundary, what it
  held at launch.  Each statement below walks one argument's buffer back from one boundary to the launch memory, one
  segment at a time.
-/
import proofs.«163101_j66872640799058_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 0 does not own the buffer of argument 1: at region 0's exit it holds what was launched. -/
theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl

/-- Region 0 does not own the buffer of argument 2: at region 0's exit it holds what was launched. -/
theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := W1_of_ne m ρ c main_arg2 (by decide)
    _ = m ((c : Thread nD τ).loc main_arg2) := rfl

/-- Region 0 does not own the buffer of argument 3: at region 0's exit it holds what was launched. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

/-- Region 0 does not own the buffer of argument 5: at region 0's exit it holds what was launched. -/
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := W1_of_ne m ρ c main_arg5 (by decide)
    _ = m ((c : Thread nD τ).loc main_arg5) := rfl

/-- Region 0 does not own the buffer of argument 6: at region 0's exit it holds what was launched. -/
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := W1_of_ne m ρ c main_arg6 (by decide)
    _ = m ((c : Thread nD τ).loc main_arg6) := rfl

/-- Region 0 does not own the buffer of argument 7: at region 0's exit it holds what was launched. -/
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := W1_of_ne m ρ c main_arg7 (by decide)
    _ = m ((c : Thread nD τ).loc main_arg7) := rfl

/-- Region 0 does not own the buffer of argument 8: at region 0's exit it holds what was launched. -/
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := W1_of_ne m ρ c main_arg8 (by decide)
    _ = m ((c : Thread nD τ).loc main_arg8) := rfl

/-- Region 0 does not own the buffer of argument 9: at region 0's exit it holds what was launched. -/
theorem W1_main_arg9 (c : Dev nD) : W1 m ρ c (Proc.devRef .tc main_arg9) = m ((c : Thread nD τ).loc main_arg9) :=
  calc W1 m ρ c (Proc.devRef .tc main_arg9)
    _ = W0 m ρ c (Proc.devRef .tc main_arg9) := W1_of_ne m ρ c main_arg9 (by decide)
    _ = m ((c : Thread nD τ).loc main_arg9) := rfl

/-- Up to region 2's entry no region owns the buffer of argument 10 and the first stretch of host operations does
    not write it: it holds what was launched. -/
theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := W1_of_ne m ρ c main_arg10 (by decide)
    _ = m ((c : Thread nD τ).loc main_arg10) := rfl

/-- Up to region 2's exit no region owns the buffer of argument 1 and the first stretch of host operations does
    not write it: it holds what was launched. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- Up to region 2's exit no region owns the buffer of argument 2 and the first stretch of host operations does
    not write it: it holds what was launched. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- Up to region 2's exit no region owns the buffer of argument 3 and the first stretch of host operations does
    not write it: it holds what was launched. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- Up to region 2's exit no region owns the buffer of argument 11 and the first stretch of host operations does
    not write it: it holds what was launched. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := W1_of_ne m ρ c main_arg11 (by decide)
    _ = m ((c : Thread nD τ).loc main_arg11) := rfl

/-- Up to region 2's exit no region owns the buffer of argument 13 and the first stretch of host operations does
    not write it: it holds what was launched. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := W1_of_ne m ρ c main_arg13 (by decide)
    _ = m ((c : Thread nD τ).loc main_arg13) := rfl

/-- Up to region 2's exit no region owns the buffer of argument 14 and the first stretch of host operations does
    not write it: it holds what was launched. -/
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := W1_of_ne m ρ c main_arg14 (by decide)
    _ = m ((c : Thread nD τ).loc main_arg14) := rfl

/-- Up to region 3's entry no region owns the buffer of argument 12 and neither stretch of host operations writes
    it: it holds what was launched. -/
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := W1_of_ne m ρ c main_arg12 (by decide)
    _ = m ((c : Thread nD τ).loc main_arg12) := rfl

end Cert.KernelIdeal.Kept

end
-- ==== Proof.KernelStages.lean ====
/-
  The stages of the program, read at the boundaries between its segments.

  The run passes through the first projection, a stretch of host operations (the first aggregation over the edges and
  the folding of the normalisation's statistics into a scale row and a shift row), the normalisation with the
  rectifier, the second projection, a second stretch of host operations (the second aggregation and the masks as
  numbers), and the merge followed by the row-wise log-softmax. At a region's exit the array the region wrote holds
  the region's function of what the region found at its entry, and an argument that nothing has written up to there
  still holds what was launched. Each statement below reads one region's output at the region's exit boundary, entry
  by entry, in terms of the contents at the region's entry boundary.
-/
import proofs.«163101_j66872640799058_1_alg».proof.Proof.Gen.KernelIdeal.Frame
import proofs.«163101_j66872640799058_1_alg».proof.Proof.Spec
import proofs.«163101_j66872640799058_1_alg».proof.Proof.MatmulRegion0
import proofs.«163101_j66872640799058_1_alg».proof.Proof.MatmulRegion2
import proofs.«163101_j66872640799058_1_alg».proof.Proof.Region1
import proofs.«163101_j66872640799058_1_alg».proof.Proof.ArgsKept

noncomputable section

namespace Cert.KernelIdeal.Stages

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- After the first region, entry `(a, b)` of the projected features is the sum over the 128 features of the
    launched features' row `a` times the launched first weights' column `b`: the region's two input arrays are
    arguments, read at launch. -/
theorem xw_stage (a : Fin 100000) (b : Fin 128) :
    W1 m ρ c (Proc.devRef .tc main_v0) (ix2 a b)
      = Spec.mmAt (m ((c : Thread nD τ).loc main_arg0)) (m ((c : Thread nD τ).loc main_arg4)) a b := by
  have h1 := congrFun (W1_arr m ρ c 2) (ix2 a b)
  exact h1.trans (Blocks.xw_region0 (V0 m ρ) c a b)

/-- After the normalisation region, entry `(a, b)` of the hidden matrix is the aggregated entry `(a, b)` times the
    scale row's entry `b`, plus the shift row's entry `b`, rectified — the three arrays as the first stretch of host
    operations left them. -/
theorem h_stage (a : Fin 100000) (b : Fin 128) :
    W3 m ρ c (Proc.devRef .tc main_v23) (ix2 a b)
      = Spec.bnReluAt (W2 m ρ c (Proc.devRef .tc main_v13) (ix2 a b))
          (W2 m ρ c (Proc.devRef .tc main_v21) (ix2 (0 : Fin 1) b))
          (W2 m ρ c (Proc.devRef .tc main_v22) (ix2 (0 : Fin 1) b)) := by
  have h1 := congrFun (W3_arr m ρ c 3) (ix2 a b)
  have h2 := congrFun (Blocks.h_array1 (V2 m ρ) c) (ix2 a b)
  exact h1.trans h2

/-- After the second projection, entry `(a, b)` is the sum over the 128 hidden entries of the hidden matrix's row
    `a` (as the normalisation region left it) times the launched second weights' column `b`: nothing up to there
    writes that argument. -/
theorem hw_stage (a : Fin 100000) (b : Fin 64) :
    W4 m ρ c (Proc.devRef .tc main_v24) (ix2 a b)
      = Spec.mmAt (W3 m ρ c (Proc.devRef .tc main_v23)) (m ((c : Thread nD τ).loc main_arg10)) a b := by
  have h1 := congrFun (W4_arr m ρ c 2) (ix2 a b)
  refine h1.trans ((Blocks.hw_region2 (V3 m ρ) c a b).trans ?_)
  show Spec.mmAt (W3 m ρ c (Proc.devRef .tc main_v23)) (W3 m ρ c (Proc.devRef .tc main_arg10)) a b = _
  rw [Kept.W3_main_arg10]

end Cert.KernelIdeal.Stages

end
-- ==== Proof.RefProducts.lean ====
/-
  The reference's two matrix products, entry by entry.

  The reference projects the node features by the first weight matrix and, after the first layer, the hidden rows by the
  second weight matrix, each as one contraction over the shared axis of 128 entries. Read at entry `(a, b)`, each is
  the sum over that axis of the left matrix's row `a` times the right matrix's column `b`: the same function of its
  two operands that the kernel's row blocks add up to.
-/
import proofs.«163101_j66872640799058_1_alg».proof.Proof.RefRead
import proofs.«163101_j66872640799058_1_alg».proof.Proof.Spec
import Idealize.ShloMosaic.Lib.ValueIdx

noncomputable section

namespace Cert.ReferenceIdeal.Products

open Cert.ReferenceIdeal Cert.ReferenceIdeal.Read Idealize.ShloMosaic Idealize.ShloMosaic.ValueIdx

/-! ## Which entries of the operands a product's entry reads -/

/-- At output entry `(a, b)` and shared index `k` the first product reads the features at `(a, k)`. -/
theorem features_entry_read (a : Fin 100000) (b : Fin 128) (k : Fin 128) : lidx_main_v0 (ix2 a b) k = ix2 a k :=
  funext fun d => by match d with | ⟨0, _⟩ => rfl | ⟨1, _⟩ => rfl

/-- … and the first weights at `(k, b)`. -/
theorem weights_entry_read (a : Fin 100000) (b : Fin 128) (k : Fin 128) : ridx_main_v0 (ix2 a b) k = ix2 k b :=
  funext fun d => by match d with | ⟨0, _⟩ => rfl | ⟨1, _⟩ => rfl

/-- At output entry `(a, b)` and shared index `k` the second product reads the hidden matrix at `(a, k)`. -/
theorem hidden_entry_read (a : Fin 100000) (b : Fin 64) (k : Fin 128) : lidx_main_v33 (ix2 a b) k = ix2 a k :=
  funext fun d => by match d with | ⟨0, _⟩ => rfl | ⟨1, _⟩ => rfl

/-- … and the second weights at `(k, b)`. -/
theorem out_weights_entry_read (a : Fin 100000) (b : Fin 64) (k : Fin 128) : ridx_main_v33 (ix2 a b) k = ix2 k b :=
  funext fun d => by match d with | ⟨0, _⟩ => rfl | ⟨1, _⟩ => rfl

/-! ## The two products -/

/-- Entry `(a, b)` of the projected features: the sum over the 128 features of the features' row `a` times the first
    weights' column `b`. -/
theorem xw_ref (x0 : (⟨S100000x128, .f32⟩ : BufTy).Contents (Elt Ideal))
    (x4 : (⟨S128x128, .f32⟩ : BufTy).Contents (Elt Ideal)) (a : Fin 100000) (b : Fin 128) :
    Read.val_main_v0 (F := Ideal) x0 x4 (ix2 a b) = Cert.Spec.mmAt x0 x4 a b := by
  rw [val_main_v0_apply]
  unfold Cert.Spec.mmAt
  refine Finset.sum_congr rfl fun k _ => ?_
  rw [features_entry_read, weights_entry_read]

/-- Entry `(a, b)` of the second projection: the sum over the 128 hidden entries of the hidden matrix's row `a` times
    the second weights' column `b`; the hidden matrix is whatever the first layer leaves and is never opened here. -/
theorem hw_ref (x0 : (⟨S100000x128, .f32⟩ : BufTy).Contents (Elt Ideal))
    (x1 x2 : (⟨S1600000, .i32⟩ : BufTy).Contents (Elt Ideal)) (x3 : (⟨S1600000, .f32⟩ : BufTy).Contents (Elt Ideal))
    (x4 : (⟨S128x128, .f32⟩ : BufTy).Contents (Elt Ideal)) (x5 x6 x7 x8 x9 : (⟨S128, .f32⟩ : BufTy).Contents (Elt Ideal))
    (x10 : (⟨S128x64, .f32⟩ : BufTy).Contents (Elt Ideal))
    (a : Fin 100000) (b : Fin 64) :
    Read.val_main_v33 (F := Ideal) x0 x1 x2 x3 x4 x5 x6 x7 x8 x9 x10 (ix2 a b)
      = Cert.Spec.mmAt (Read.val_main_v32 (F := Ideal) x0 x1 x2 x3 x4 x5 x6 x7 x8 x9) x10 a b := by
  rw [val_main_v33_apply]
  generalize val_main_v32 (F := Ideal) x0 x1 x2 x3 x4 x5 x6 x7 x8 x9 = h
  unfold Cert.Spec.mmAt
  refine Finset.sum_congr rfl fun k _ => ?_
  rw [hidden_entry_read, out_weights_entry_read]

end Cert.ReferenceIdeal.Products

end
-- ==== Proof.LibExtReal.lean ====
/-
  Extended-real arithmetic that does not depend on any program.

  Three things are collected here.  First, "being a real number" (neither infinity) is preserved by every operation a
  two-layer graph network applies to its data: sums, differences, products, maxima, finite sums, matrix products,
  the rectified normalisation, the row maximum, a gather, a scatter-add, the reciprocal square root of a positive
  number, and the mask merge.  Second, three identities between two ways of writing the same arithmetic, which hold
  on the extended reals only because the quantities involved are real (or, for the mask merge, because the masks
  are 0 or 1).  Third, two facts about one constant: the single-precision number nearest to one hundred-thousandth
  is a positive real.
-/
import proofs.«163101_j66872640799058_1_alg».proof.Proof.Spec
import Idealize.ShloMosaic.PureOps.Ideal
import Idealize.ShloMosaic.PureOps.Ideal.Laws
import Idealize.ShloMosaic.PureOps.Contract

noncomputable section

namespace Cert.Spec

open Idealize.ShloMosaic Idealize.ShloMosaic.ValueIdx

/-! ### Closure of the real numbers inside the extended reals -/

/-- The image of a real number in the extended reals is a real number. -/
theorem IsReal.coe (r : ℝ) : IsReal (r : EReal) := ⟨r, rfl⟩

/-- Zero is a real number. -/
theorem isReal_zero : IsReal (0 : EReal) := ⟨0, rfl⟩

/-- One is a real number. -/
theorem isReal_one : IsReal (1 : EReal) := ⟨1, rfl⟩

/-- A real number is not the bottom element. -/
theorem IsReal.ne_bot {x : EReal} (hx : IsReal x) : x ≠ ⊥ := by
  obtain ⟨a, rfl⟩ := hx; exact EReal.coe_ne_bot a

/-- A real number is not the top element. -/
theorem IsReal.ne_top {x : EReal} (hx : IsReal x) : x ≠ ⊤ := by
  obtain ⟨a, rfl⟩ := hx; exact EReal.coe_ne_top a

/-- The sum of two real numbers is a real number. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real numbers is a real number. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real numbers is a real number. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negative of a real number is a real number. -/
theorem IsReal.neg {x : EReal} (hx : IsReal x) : IsReal (-x) := by
  obtain ⟨a, rfl⟩ := hx
  exact ⟨-a, (EReal.coe_neg a).symm⟩

/-- The greater of two real numbers is a real number: it is one of the two. -/
theorem IsReal.max {x y : EReal} (hx : IsReal x) (hy : IsReal y) : IsReal (Max.max x y) := by
  rcases max_choice x y with h | h
  · rw [h]; exact hx
  · rw [h]; exact hy

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- An entry of the product of two matrices of real numbers is a real number. -/
theorem isReal_mmAt {n k p : Nat} (X : Mat n k) (W : Mat k p) (hX : ∀ i, IsReal (X i)) (hW : ∀ i, IsReal (W i))
    (a : Fin n) (b : Fin p) : IsReal (mmAt X W a b) :=
  isReal_sum _ _ fun q _ => (hX (ix2 a q)).mul (hW (ix2 q b))

/-- The rectified normalisation of a real entry by a real scale and a real shift is a real number. -/
theorem isReal_bnReluAt {x s t : EReal} (hx : IsReal x) (hs : IsReal s) (ht : IsReal t) : IsReal (bnReluAt x s t) :=
  ((hx.mul hs).add ht).max isReal_zero

/-- Every entry of a row is at most the row's maximum. -/
theorem le_rowMax {p : Nat} (r : Fin p → EReal) (c : Fin p) : r c ≤ rowMax r :=
  (Finset.le_fold_max (r c)).2 (Or.inr ⟨c, Finset.mem_univ c, le_rfl⟩)

/-- The fold of the maximum from the bottom element over a finite family of real numbers is the bottom element or a
    real number. -/
theorem fold_max_bot_or_isReal {ι : Type*} (s : Finset ι) (f : ι → EReal) (h : ∀ i ∈ s, IsReal (f i)) :
    s.fold Max.max ⊥ f = ⊥ ∨ IsReal (s.fold Max.max ⊥ f) := by
  classical
  induction s using Finset.induction_on with
  | empty => left; simp
  | insert a s ha ih =>
    right
    rw [Finset.fold_insert ha]
    rcases ih (fun i hi => h i (Finset.mem_insert_of_mem hi)) with e | e
    · rw [e, max_bot_right]; exact h a (Finset.mem_insert_self a s)
    · exact (h a (Finset.mem_insert_self a s)).max e

/-- The maximum of a nonempty row of real numbers is a real number. -/
theorem isReal_rowMax {p : Nat} (hp : 0 < p) (r : Fin p → EReal) (h : ∀ c, IsReal (r c)) : IsReal (rowMax r) := by
  rcases fold_max_bot_or_isReal Finset.univ r (fun c _ => h c) with e | e
  · exfalso
    have h0 : r ⟨0, hp⟩ ≤ ⊥ := by
      have := le_rowMax r ⟨0, hp⟩
      unfold rowMax at this
      rwa [e] at this
    exact (h ⟨0, hp⟩).ne_bot (le_bot_iff.1 h0)
  · exact e

/-! ### Three identities between two ways of writing the same arithmetic -/

/-- The folded normalisation.  Adding a bias `b`, subtracting a running mean `μ`, scaling by `g` and by a
    reciprocal standard deviation `r`, and adding an offset `β`, is the same as multiplying by the single scale
    `g · r` and adding the single shift `β + (g · r) · (b - μ)` — as long as all six numbers are real (the
    distributive law fails at the infinities). -/
theorem bn_fold {a g r b μ β : EReal} (ha : IsReal a) (hg : IsReal g) (hr : IsReal r) (hb : IsReal b)
    (hμ : IsReal μ) (hβ : IsReal β) :
    bnReluAt a (g * r) (β + (g * r) * (b - μ)) = Max.max ((g * ((a + b) - μ)) * r + β) 0 := by
  obtain ⟨a, rfl⟩ := ha; obtain ⟨g, rfl⟩ := hg; obtain ⟨r, rfl⟩ := hr
  obtain ⟨b, rfl⟩ := hb; obtain ⟨μ, rfl⟩ := hμ; obtain ⟨β, rfl⟩ := hβ
  have e : (a : EReal) * ((g : EReal) * (r : EReal)) + ((β : EReal) + ((g : EReal) * (r : EReal)) * ((b : EReal) - (μ : EReal)))
      = ((g : EReal) * (((a : EReal) + (b : EReal)) - (μ : EReal))) * (r : EReal) + (β : EReal) := by
    simp only [← EReal.coe_mul, ← EReal.coe_add, ← EReal.coe_sub]
    exact congrArg Real.toEReal (by ring)
  unfold bnReluAt
  rw [e]

/-- One minus one is zero on the extended reals. -/
theorem one_sub_one : (1 : EReal) - 1 = 0 := by
  rw [← EReal.coe_one, ← EReal.coe_sub, sub_self, EReal.coe_zero]

/-- The mask merge with the masks written as the numbers 0 and 1 selects: where the first mask is set the fresh
    entry is kept, elsewhere the previous entry; where the second mask is set the fresh entry is added once more.
    No finiteness is needed: every product here has a factor 0 or 1. -/
theorem merge_select (h e : EReal) (s i : Bool) :
    mergeAt h e (if s then 1 else 0) (if i then 1 else 0) = (if s then h else e) + (if i then h else 0) := by
  cases s <;> cases i <;>
    simp only [mergeAt, Bool.false_eq_true, if_false, if_true, sub_zero, one_sub_one, zero_mul, one_mul,
      add_zero, zero_add]

/-- Subtracting a sum whose first term is real is subtracting the two terms in turn. -/
theorem sub_add_eq_sub_sub_of_isReal {x m l : EReal} (hm : IsReal m) : x - (m + l) = (x - m) - l := by
  rw [sub_eq_add_neg x (m + l), EReal.neg_add (Or.inl hm.ne_bot) (Or.inl hm.ne_top), sub_eq_add_neg (-m) l,
    ← add_assoc, ← sub_eq_add_neg x m, ← sub_eq_add_neg]

/-- The log-sum-exp regrouping: when the row maximum is real, "entry minus (maximum plus log of the sum of the
    shifted exponentials)" is "(entry minus maximum) minus that log". -/
theorem lsm_regroup {p : Nat} (r : Fin p → EReal) (hm : IsReal (rowMax r)) (b : Fin p) :
    lsmAt r b = (r b - rowMax r) - Ideal.log (∑ c, Ideal.exp (r c - rowMax r)) :=
  sub_add_eq_sub_sub_of_isReal hm

/-! ### Through the host operations, the reciprocal square root, and the merge -/

/-- A gather of an array of real numbers holds real numbers: each entry is an entry of the operand. -/
theorem isReal_gather {s si t : Shape} {w : Nat} (d : GatherDims s si t) (x : s.Idx → EReal) (idx : IVec si w)
    (h : ∀ i, IsReal (x i)) (j : t.Idx) : IsReal (Host.gather d x idx j) :=
  h (d.operandIdx j idx)

/-- A scatter-add of real updates into an array of real numbers holds real numbers: each entry is the operand's
    plus a finite sum of updates. -/
theorem isReal_scatterAdd {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact (hx i).add (isReal_sum _ _ fun j _ => hu j)

/-- The reciprocal square root of a positive real number is a real number. -/
theorem isReal_rsqrt {x : EReal} (hx : IsReal x) (hpos : 0 < x) : IsReal (Ideal.rsqrt x) := by
  obtain ⟨r, rfl⟩ := hx
  have hr : 0 < r := EReal.coe_pos.1 hpos
  rw [Ideal.rsqrt_coe, if_neg (not_lt.2 hr.le), if_neg hr.ne']
  exact ⟨_, rfl⟩

/-- The selecting form of the mask merge of two real numbers is a real number. -/
theorem isReal_merge {h e : EReal} (hh : IsReal h) (he : IsReal e) (s i : Bool) :
    IsReal ((if s then h else e) + (if i then h else 0)) := by
  cases s <;> cases i <;> simp only [Bool.false_eq_true, if_false, if_true]
  · exact he.add isReal_zero
  · exact he.add hh
  · exact hh.add isReal_zero
  · exact hh.add hh

/-! ### One constant: the single-precision number nearest to one hundred-thousandth -/

/-- The constant as an extended real: `10995116 / 2^40`, read off the sign, exponent and significand fields. -/
theorem eps_eq : Ideal.ofBits .f32 0x3727C5AC#32 = ((10995116 * (2 ^ 40)⁻¹ : ℝ) : EReal) := by
  simp [Ideal.ofBits, Ideal.ieee, -EReal.coe_mul]

/-- The constant is a real number. -/
theorem eps_isReal : IsReal (Ideal.ofBits .f32 0x3727C5AC#32) := by
  rw [eps_eq]; exact ⟨_, rfl⟩

/-- The constant is positive. -/
theorem eps_pos : (0 : EReal) < Ideal.ofBits .f32 0x3727C5AC#32 := by
  rw [eps_eq]; exact EReal.coe_pos.2 (by positivity)

/-- The reciprocal square root of a nonnegative real number plus the constant is a real number. -/
theorem isReal_rsqrt_add_eps {v : EReal} (hv : IsReal v) (h0 : 0 ≤ v) :
    IsReal (Ideal.rsqrt (v + Ideal.ofBits .f32 0x3727C5AC#32)) :=
  isReal_rsqrt (hv.add eps_isReal) <|
    calc (0 : EReal) < Ideal.ofBits .f32 0x3727C5AC#32 := eps_pos
      _ = 0 + Ideal.ofBits .f32 0x3727C5AC#32 := (zero_add _).symm
      _ ≤ v + Ideal.ofBits .f32 0x3727C5AC#32 := add_le_add h0 le_rfl

end Cert.Spec

end
-- ==== Proof.BridgeProducts.lean ====
/-
  The two matrix products agree between the two programs.

  The kernel's first projection, read where its region ends, and the reference's first contraction are the same array
  when both are given the launched features and first weights: entry by entry each is the sum over the shared axis of
  row times column. Likewise the second projection, once the hidden matrices the two programs feed into it are known
  to be the same array. Both products of real matrices hold real numbers, being finite sums of products.
-/
import proofs.«163101_j66872640799058_1_alg».proof.Proof.KernelStages
import proofs.«163101_j66872640799058_1_alg».proof.Proof.RefProducts
import proofs.«163101_j66872640799058_1_alg».proof.Proof.LibExtReal
import proofs.«163101_j66872640799058_1_alg».proof.Proof.RefRead
import proofs.«163101_j66872640799058_1_alg».proof.Proof.Spec

noncomputable section

namespace Cert.Bridge

open Cert.KernelIdeal Cert.KernelIdeal.Gen
open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The projected features the kernel leaves after its first region are the reference's first product of the launched
    features and first weights. -/
theorem xw_eq :
    W1 m ρ c (Proc.devRef .tc main_v0)
      = Cert.ReferenceIdeal.Read.val_main_v0 (F := Ideal) (m ((c : Thread nD τ).loc main_arg0)) (m ((c : Thread nD τ).loc main_arg4)) := by
  funext i
  obtain ⟨a, b, rfl⟩ : ∃ (a : Fin 100000) (b : Fin 128), i = ix2 a b := ⟨i 0, i 1, eq_ix2 i⟩
  exact (Cert.KernelIdeal.Stages.xw_stage m ρ c a b).trans (Cert.ReferenceIdeal.Products.xw_ref _ _ a b).symm

/-- If the hidden matrix the kernel holds after the normalisation region is the reference's hidden matrix, the
    kernel's second projection is the reference's second product with the launched second weights. -/
theorem hw_eq
    (hprev : W3 m ρ c (Proc.devRef .tc main_v23)
      = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :
    W4 m ρ c (Proc.devRef .tc main_v24)
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨a, b, rfl⟩ : ∃ (a : Fin 100000) (b : Fin 64), i = ix2 a b := ⟨i 0, i 1, eq_ix2 i⟩
  refine (Cert.KernelIdeal.Stages.hw_stage m ρ c a b).trans ?_
  rw [hprev]
  exact (Cert.ReferenceIdeal.Products.hw_ref _ _ _ _ _ _ _ _ _ _ _ a b).symm

/-- The first product of real features and real weights holds real numbers. -/
theorem xw_real (h0 : ∀ i, Cert.Spec.IsReal ((m ((c : Thread nD τ).loc main_arg0)) i)) (h4 : ∀ i, Cert.Spec.IsReal ((m ((c : Thread nD τ).loc main_arg4)) i)) :
    ∀ i, Cert.Spec.IsReal (Cert.ReferenceIdeal.Read.val_main_v0 (F := Ideal) (m ((c : Thread nD τ).loc main_arg0)) (m ((c : Thread nD τ).loc main_arg4)) i) := by
  intro i
  obtain ⟨a, b, rfl⟩ : ∃ (a : Fin 100000) (b : Fin 128), i = ix2 a b := ⟨i 0, i 1, eq_ix2 i⟩
  rw [Cert.ReferenceIdeal.Products.xw_ref]
  exact Cert.Spec.isReal_mmAt _ _ h0 h4 a b

/-- The second product of a real hidden matrix and real weights holds real numbers. -/
theorem hw_real
    (h32 : ∀ i, Cert.Spec.IsReal (Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i))
    (h10 : ∀ i, Cert.Spec.IsReal ((m ((c : Thread nD τ).loc main_arg10)) i)) :
    ∀ i, Cert.Spec.IsReal (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i) := by
  intro i
  obtain ⟨a, b, rfl⟩ : ∃ (a : Fin 100000) (b : Fin 64), i = ix2 a b := ⟨i 0, i 1, eq_ix2 i⟩
  rw [Cert.ReferenceIdeal.Products.hw_ref]
  exact Cert.Spec.isReal_mmAt _ _ h32 h10 a b

end Cert.Bridge

end
-- ==== Proof.Shared.lean ====
/-
  The edge aggregation of a graph layer, named once.

  Both programs carry out the aggregation of a layer by the very same chain of array operations: wrap the negative
  source indices, gather the projected rows at the edges' sources, scale each by its edge weight, and add the scaled
  rows up at the edges' destinations.  The chain is written down here once, operand by operand as both programs
  state it, so that neither side ever has to open it; the only fact about it that is needed is that it maps real
  arrays to real arrays.
-/
import proofs.«163101_j66872640799058_1_alg».proof.ReferenceIdeal
import proofs.«163101_j66872640799058_1_alg».proof.Proof.Spec
import proofs.«163101_j66872640799058_1_alg».proof.Proof.LibExtReal
import Idealize.ShloMosaic.PureOps.Ideal
import Idealize.ShloMosaic.Lib.ValueIdx

noncomputable section

namespace Cert.Shared

open Idealize.ShloMosaic Idealize.ShloMosaic.ValueIdx
open Cert.ReferenceIdeal
open Cert.Spec (IsReal)

variable [Cert.ReferenceIdeal.Facts₀]
open Cert.ReferenceIdeal.Facts₀

/-- The edge aggregation into rows of length 128: the projected rows `xw` of the edges' source nodes (a negative
    source index wrapped around by the number of nodes), each scaled by its edge's weight, added up at the edges'
    destination nodes, starting from zero. -/
def agg128 (xw : FVec Ideal S100000x128 .f32) (src dst : IVec S1600000 32) (w : FVec Ideal S1600000 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf
      (Host.gather gather_S100000x128_S1600000x1_S1600000x128_1_0_n_n_0_1_1128 xw
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

/-- The aggregation of real rows with real edge weights holds real numbers: every entry is zero plus a finite sum
    of products of a gathered entry and a weight. -/
theorem isReal_agg128 (xw : FVec Ideal S100000x128 .f32) (src dst : IVec S1600000 32) (w : FVec Ideal S1600000 .f32)
    (hx : ∀ i, IsReal (xw i)) (hw : ∀ i, IsReal (w i)) : ∀ i, IsReal (agg128 xw src dst w i) := by
  intro i
  unfold agg128
  refine Cert.Spec.isReal_scatterAdd _ _ _ _ (fun _ => ?_) (fun j => ?_) i
  · show IsReal (Ideal.ofBits .f32 0x00000000#32)
    rw [Ideal.ofBits_zero_f32]; exact Cert.Spec.isReal_zero
  · exact (Cert.Spec.isReal_gather _ _ _ hx j).mul (hw _)

/-- The edge aggregation into rows of length 64: the projected rows `xw` of the edges' source nodes (a negative
    source index wrapped around by the number of nodes), each scaled by its edge's weight, added up at the edges'
    destination nodes, starting from zero. -/
def agg64 (xw : FVec Ideal S100000x64 .f32) (src dst : IVec S1600000 32) (w : FVec Ideal S1600000 .f32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (mulf
      (Host.gather gather_S100000x64_S1600000x1_S1600000x64_1_0_n_n_0_1_164 xw
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-- The aggregation of real rows with real edge weights holds real numbers: every entry is zero plus a finite sum
    of products of a gathered entry and a weight. -/
theorem isReal_agg64 (xw : FVec Ideal S100000x64 .f32) (src dst : IVec S1600000 32) (w : FVec Ideal S1600000 .f32)
    (hx : ∀ i, IsReal (xw i)) (hw : ∀ i, IsReal (w i)) : ∀ i, IsReal (agg64 xw src dst w i) := by
  intro i
  unfold agg64
  refine Cert.Spec.isReal_scatterAdd _ _ _ _ (fun _ => ?_) (fun j => ?_) i
  · show IsReal (Ideal.ofBits .f32 0x00000000#32)
    rw [Ideal.ofBits_zero_f32]; exact Cert.Spec.isReal_zero
  · exact (Cert.Spec.isReal_gather _ _ _ hx j).mul (hw _)

end Cert.Shared

end
-- ==== Proof.HostStages.lean ====
/-
  The two stretches of host operations of the kernel program, read as pure functions of what they find.

  Between its regions the program runs two straight lines of array operations.  The first computes, from the
  projected rows that region 0 leaves and the edge arrays, the aggregated rows of the first layer, and, from the
  normalisation parameters, the folded scale and shift as row vectors.  The second computes the aggregated rows of
  the second layer, turns the two masks into columns of zeros and ones, and lays the second bias out as a row vector.
  Each statement below says what one result buffer holds after its stretch, as a function of the buffers the stretch
  started from; the entrywise forms then read the small ones at an index, with the argument arrays walked back to
  the launch memory.
-/
import proofs.«163101_j66872640799058_1_alg».proof.Proof.Gen.KernelIdeal.Frame
import proofs.«163101_j66872640799058_1_alg».proof.Proof.Gen.ReferenceIdeal
import proofs.«163101_j66872640799058_1_alg».proof.Proof.Shared
import proofs.«163101_j66872640799058_1_alg».proof.Proof.ArgsKept
import Idealize.ShloMosaic.Lib.StableHlo.Run
import Idealize.ShloMosaic.Lib.ValueLayout
import Idealize.ShloMosaic.Lib.ValueIdx
import Idealize.ShloMosaic.PureOps.Ideal

set_option maxRecDepth 16384

noncomputable section

namespace Cert.KernelIdeal.HostStages

open Cert.KernelIdeal Cert.KernelIdeal.Gen Cert.KernelIdeal.Kept
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

/-! ### Two small facts about words and layouts -/

/-- A one-bit word read as an unsigned integer, as an extended real, is 1 if the bit is set and 0 otherwise. -/
theorem toNat_bit_eq_ite (v : BitVec 1) : (((v.toNat : ℝ)) : EReal) = if v = 1#1 then 1 else 0 := by
  obtain h | h : v = 0#1 ∨ v = 1#1 := by revert v; decide
  · subst h; simp
  · subst h; simp

/-- An array of extent `[a]` laid out as `[a, 1]` reads, at `(i, u)`, the operand at `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg) (c : Dev nD)

/-- The launch contents of the float row-vector arguments and of the two masks on core `c`, each typed as the array
    it is (so that an entry of one is an extended real, or a one-bit word). -/
abbrev arg5 : FVec Ideal S128 .f32 := m ((c : Thread nD τ).loc main_arg5)
@[inherit_doc arg5] abbrev arg6 : FVec Ideal S128 .f32 := m ((c : Thread nD τ).loc main_arg6)
@[inherit_doc arg5] abbrev arg7 : FVec Ideal S128 .f32 := m ((c : Thread nD τ).loc main_arg7)
@[inherit_doc arg5] abbrev arg8 : FVec Ideal S128 .f32 := m ((c : Thread nD τ).loc main_arg8)
@[inherit_doc arg5] abbrev arg9 : FVec Ideal S128 .f32 := m ((c : Thread nD τ).loc main_arg9)
@[inherit_doc arg5] abbrev arg11 : FVec Ideal S64 .f32 := m ((c : Thread nD τ).loc main_arg11)
@[inherit_doc arg5] abbrev arg13 : IVec S100000 1 := m ((c : Thread nD τ).loc main_arg13)
@[inherit_doc arg5] abbrev arg14 : IVec S100000 1 := m ((c : Thread nD τ).loc main_arg14)

/-! ### The first stretch: from region 0's exit to region 1's entry -/

set_option maxHeartbeats 1000000 in
/-- After the first stretch the aggregation buffer holds the shared edge aggregation of the projected rows region 0
    left, at the edge arrays as the stretch found them. -/
theorem W2_main_v13 : W2 m ρ c (Proc.devRef .tc main_v13)
    = Cert.Shared.agg128 (W1 m ρ c (Proc.devRef .tc main_v0)) (W1 m ρ c (Proc.devRef .tc main_arg1) : IVec S1600000 32)
        (W1 m ρ c (Proc.devRef .tc main_arg2) : IVec S1600000 32) (W1 m ρ c (Proc.devRef .tc main_arg3) : FVec Ideal S1600000 .f32) := by
  dsimp only [W2]
  after_results_simp
  rfl

set_option maxHeartbeats 1000000 in
/-- After the first stretch the scale buffer holds, as a row vector, the gain times the reciprocal square root of
    the variance plus the constant. -/
theorem W2_main_v21 : W2 m ρ c (Proc.devRef .tc main_v21)
    = shapeCast S1x128 (mulf (W1 m ρ c (Proc.devRef .tc main_arg6) : FVec Ideal S128 .f32) (Host.rsqrt (F := Ideal) (addf (W1 m ρ c (Proc.devRef .tc main_arg9) : FVec Ideal S128 .f32) (broadcastInDim S128 ![] bcast_S_S128 (constant (F := Ideal) S_ .f32 0x3727C5AC#32))))) shapeCasts_S128_S1x128 := by
  dsimp only [W2]
  after_results_simp
  rfl

set_option maxHeartbeats 1000000 in
/-- After the first stretch the shift buffer holds, as a row vector, the offset plus the scale times the bias minus
    the mean. -/
theorem W2_main_v22 : W2 m ρ c (Proc.devRef .tc main_v22)
    = shapeCast S1x128 (addf (W1 m ρ c (Proc.devRef .tc main_arg7) : FVec Ideal S128 .f32) (mulf (mulf (W1 m ρ c (Proc.devRef .tc main_arg6) : FVec Ideal S128 .f32) (Host.rsqrt (F := Ideal) (addf (W1 m ρ c (Proc.devRef .tc main_arg9) : FVec Ideal S128 .f32) (broadcastInDim S128 ![] bcast_S_S128 (constant (F := Ideal) S_ .f32 0x3727C5AC#32)))))
        (subf (W1 m ρ c (Proc.devRef .tc main_arg5) : FVec Ideal S128 .f32) (W1 m ρ c (Proc.devRef .tc main_arg8) : FVec Ideal S128 .f32)))) shapeCasts_S128_S1x128 := by
  dsimp only [W2]
  after_results_simp
  rfl

/-- The scale row vector at an entry, over the launch contents of the arguments. -/
theorem W2_main_v21_apply (b : Fin 128) :
    (W2 m ρ c (Proc.devRef .tc main_v21) : FVec Ideal S1x128 .f32) (ix2 (0 : Fin 1) b)
      = arg6 m c (ix1 b) * Ideal.rsqrt (arg9 m c (ix1 b) + Ideal.ofBits .f32 0x3727C5AC#32) := by
  rw [W2_main_v21, shapeCast_a_1a_apply, W1_main_arg6, W1_main_arg9]
  rfl

/-- The shift row vector at an entry, over the launch contents of the arguments. -/
theorem W2_main_v22_apply (b : Fin 128) :
    (W2 m ρ c (Proc.devRef .tc main_v22) : FVec Ideal S1x128 .f32) (ix2 (0 : Fin 1) b)
      = arg7 m c (ix1 b) + (arg6 m c (ix1 b) * Ideal.rsqrt (arg9 m c (ix1 b) + Ideal.ofBits .f32 0x3727C5AC#32))
          * (arg5 m c (ix1 b) - arg8 m c (ix1 b)) := by
  rw [W2_main_v22, shapeCast_a_1a_apply, W1_main_arg5, W1_main_arg6, W1_main_arg7, W1_main_arg8, W1_main_arg9]
  rfl

/-! ### The second stretch: from region 2's exit to region 3's entry -/

set_option maxHeartbeats 1000000 in
/-- After the second stretch the aggregation buffer holds the shared edge aggregation of the projected rows region 2
    left, at the edge arrays as the stretch found them. -/
theorem W5_main_v37 : W5 m ρ c (Proc.devRef .tc main_v37)
    = Cert.Shared.agg64 (W4 m ρ c (Proc.devRef .tc main_v24)) (W4 m ρ c (Proc.devRef .tc main_arg1) : IVec S1600000 32)
        (W4 m ρ c (Proc.devRef .tc main_arg2) : IVec S1600000 32) (W4 m ρ c (Proc.devRef .tc main_arg3) : FVec Ideal S1600000 .f32) := by
  dsimp only [W5]
  after_results_simp
  rfl

set_option maxHeartbeats 1000000 in
/-- After the second stretch the first mask column holds the first mask read as zeros and ones. -/
theorem W5_main_v39 : W5 m ρ c (Proc.devRef .tc main_v39)
    = shapeCast S100000x1 (uitofp (F := Ideal) .f32 (W4 m ρ c (Proc.devRef .tc main_arg13) : IVec S100000 1)) shapeCasts_S100000_S100000x1 := by
  dsimp only [W5]
  after_results_simp
  rfl

set_option maxHeartbeats 1000000 in
/-- After the second stretch the second mask column holds the second mask read as zeros and ones. -/
theorem W5_main_v41 : W5 m ρ c (Proc.devRef .tc main_v41)
    = shapeCast S100000x1 (uitofp (F := Ideal) .f32 (W4 m ρ c (Proc.devRef .tc main_arg14) : IVec S100000 1)) shapeCasts_S100000_S100000x1 := by
  dsimp only [W5]
  after_results_simp
  rfl

set_option maxHeartbeats 1000000 in
/-- After the second stretch the bias row vector holds the second bias laid out as a row. -/
theorem W5_main_v42 : W5 m ρ c (Proc.devRef .tc main_v42)
    = shapeCast S1x64 (W4 m ρ c (Proc.devRef .tc main_arg11) : FVec Ideal S64 .f32) shapeCasts_S64_S1x64 := by
  dsimp only [W5]
  after_results_simp
  rfl

/-- The first mask column at an entry: 1 where the launch mask's bit is set, 0 elsewhere. -/
theorem W5_main_v39_apply (a : Fin 100000) :
    (W5 m ρ c (Proc.devRef .tc main_v39) : FVec Ideal S100000x1 .f32) (ix2 a (0 : Fin 1))
      = if arg13 m c (ix1 a) = 1#1 then (1 : EReal) else 0 := by
  rw [W5_main_v39, shapeCast_a_a1_apply, W4_main_arg13]
  exact toNat_bit_eq_ite _

/-- The second mask column at an entry: 1 where the launch mask's bit is set, 0 elsewhere. -/
theorem W5_main_v41_apply (a : Fin 100000) :
    (W5 m ρ c (Proc.devRef .tc main_v41) : FVec Ideal S100000x1 .f32) (ix2 a (0 : Fin 1))
      = if arg14 m c (ix1 a) = 1#1 then (1 : EReal) else 0 := by
  rw [W5_main_v41, shapeCast_a_a1_apply, W4_main_arg14]
  exact toNat_bit_eq_ite _

/-- The bias row vector at an entry: the launch bias there. -/
theorem W5_main_v42_apply (b : Fin 64) :
    (W5 m ρ c (Proc.devRef .tc main_v42) : FVec Ideal S1x64 .f32) (ix2 (0 : Fin 1) b)
      = arg11 m c (ix1 b) := by
  rw [W5_main_v42, shapeCast_a_1a_apply, W4_main_arg11]

end Cert.KernelIdeal.HostStages

end
-- ==== Proof.BridgeAgg.lean ====
/-
  The two edge aggregations agree between the two programs.

  Both programs aggregate a layer by the same chain of array operations (wrap the negative source indices, gather the
  projected rows at the edges' sources, scale each by its edge weight, add the scaled rows up at the destinations), so
  once the projected rows going in are the same array the aggregated rows coming out are the same array; the edge
  arrays are arguments that nothing writes, read as launched. The chain is carried as one named function and never
  opened; of it only "real rows and real weights give real rows" is used.
-/
import proofs.«163101_j66872640799058_1_alg».proof.Proof.BridgeProducts
import proofs.«163101_j66872640799058_1_alg».proof.Proof.HostStages
import proofs.«163101_j66872640799058_1_alg».proof.Proof.Shared
import proofs.«163101_j66872640799058_1_alg».proof.Proof.ArgsKept
import proofs.«163101_j66872640799058_1_alg».proof.Proof.RefRead
import proofs.«163101_j66872640799058_1_alg».proof.Proof.Gen.ReferenceIdeal

noncomputable section

namespace Cert.Bridge

open Cert.KernelIdeal Cert.KernelIdeal.Gen
open Idealize.ShloMosaic Idealize.ShloMosaic.TcCoe Idealize.SL.Sem Idealize.ShloMosaic.ValueIdx

/-- The reference's first aggregation is the shared edge aggregation of its first product: the same operations on the
    same operands, in the same order. -/
theorem v13_is_agg (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal)) :
    Cert.ReferenceIdeal.Read.val_main_v13 (F := Ideal) x0 x1 x2 x3 x4
      = Cert.Shared.agg128 (Cert.ReferenceIdeal.Read.val_main_v0 (F := Ideal) x0 x4) x1 x2 x3 := rfl

/-- The reference's second aggregation is the shared edge aggregation of its second product. -/
theorem v46_is_agg (x0 : (⟨Cert.ReferenceIdeal.S100000x128, .f32⟩ : BufTy).Contents (Elt Ideal))
    (x1 x2 : (⟨Cert.ReferenceIdeal.S1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 x6 x7 x8 x9 : (⟨Cert.ReferenceIdeal.S128, .f32⟩ : BufTy).Contents (Elt Ideal))
    (x10 : (⟨Cert.ReferenceIdeal.S128x64, .f32⟩ : BufTy).Contents (Elt Ideal)) :
    Cert.ReferenceIdeal.Read.val_main_v46 (F := Ideal) x0 x1 x2 x3 x4 x5 x6 x7 x8 x9 x10
      = Cert.Shared.agg64 (Cert.ReferenceIdeal.Read.val_main_v33 (F := Ideal) x0 x1 x2 x3 x4 x5 x6 x7 x8 x9 x10) x1 x2 x3 := rfl

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The aggregated rows the kernel holds after its first stretch of host operations are the reference's first
    aggregation of the launched arguments. -/
theorem agg1_eq :
    W2 m ρ c (Proc.devRef .tc main_v13)
      = Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Cert.KernelIdeal.HostStages.W2_main_v13, Cert.KernelIdeal.Kept.W1_main_arg1, Cert.KernelIdeal.Kept.W1_main_arg2, Cert.KernelIdeal.Kept.W1_main_arg3, xw_eq m ρ c, v13_is_agg]

/-- If the kernel's second projection is the reference's second product, the aggregated rows the kernel holds after its
    second stretch of host operations are the reference's second aggregation. -/
theorem agg2_eq
    (hprev : W4 m ρ c (Proc.devRef .tc main_v24)
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :
    W5 m ρ c (Proc.devRef .tc main_v37)
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.KernelIdeal.HostStages.W5_main_v37, Cert.KernelIdeal.Kept.W4_main_arg1, Cert.KernelIdeal.Kept.W4_main_arg2, Cert.KernelIdeal.Kept.W4_main_arg3, hprev, v46_is_agg]

/-- The first aggregation of real features, real weights and real edge weights holds real numbers. -/
theorem agg1_real (h0 : ∀ i, Cert.Spec.IsReal ((m ((c : Thread nD τ).loc main_arg0)) i)) (h3 : ∀ i, Cert.Spec.IsReal ((m ((c : Thread nD τ).loc main_arg3)) i))
    (h4 : ∀ i, Cert.Spec.IsReal ((m ((c : Thread nD τ).loc main_arg4)) i)) :
    ∀ i, Cert.Spec.IsReal (Cert.ReferenceIdeal.Read.val_main_v13 (F := Ideal) (m ((c : Thread nD τ).loc main_arg0)) (m ((c : Thread nD τ).loc main_arg1)) (m ((c : Thread nD τ).loc main_arg2)) (m ((c : Thread nD τ).loc main_arg3)) (m ((c : Thread nD τ).loc main_arg4)) i) := by
  rw [v13_is_agg]
  exact Cert.Shared.isReal_agg128 _ _ _ _ (xw_real m c h0 h4) h3

/-- The second aggregation of a real second product and real edge weights holds real numbers. -/
theorem agg2_real
    (h33 : ∀ i, Cert.Spec.IsReal (Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i))
    (h3 : ∀ i, Cert.Spec.IsReal ((m ((c : Thread nD τ).loc main_arg3)) i)) :
    ∀ i, Cert.Spec.IsReal (Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i) := by
  rw [v46_is_agg]
  exact Cert.Shared.isReal_agg64 _ _ _ _ h33 h3

end Cert.Bridge

end
-- ==== Proof.RefFormulas.lean ====
/-
  The reference's normalisation stage and merge stage, read at one entry.

  The reference writes the normalisation of the first layer as a chain of whole-array operations: add the bias row,
  subtract the running mean row, multiply by the gain row, multiply by the row of reciprocal standard deviations, add
  the offset row, and take the maximum with zero.  After the second layer it adds the second bias row, keeps the
  fresh row where the first mask is set and the previous embedding's row elsewhere, and adds the fresh row once more
  where the second mask is set.  Each statement below reads one of these arrays at the entry `(a, b)`, the row
  vectors at their entry `b` and the masks at their entry `a`; the aggregated arrays stay folded.
-/
import proofs.«163101_j66872640799058_1_alg».proof.Proof.RefRead
import proofs.«163101_j66872640799058_1_alg».proof.Proof.Spec
import proofs.«163101_j66872640799058_1_alg».proof.Proof.LibExtReal
import Idealize.ShloMosaic.Lib.ValueIdx

noncomputable section

namespace Cert.ReferenceIdeal.Formulas

open Cert.ReferenceIdeal Cert.ReferenceIdeal.Gen Cert.ReferenceIdeal.Read
open Idealize.ShloMosaic Idealize.ShloMosaic.ValueIdx

/-! ### The composed index maps of the row broadcasts and the mask broadcasts -/

/-- The normalisation of the first layer followed by the rectifier, at one entry. -/
theorem h_ref (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 x6 x7 x8 x9 : (⟨S128, .f32⟩ : BufTy).Contents (Elt Ideal)) (a : Fin 100000) (b : Fin 128) :
    val_main_v32 (F := Ideal) x0 x1 x2 x3 x4 x5 x6 x7 x8 x9 (ix2 a b)
      = max ((x6 (ix1 b) * ((val_main_v13 (F := Ideal) x0 x1 x2 x3 x4 (ix2 a b) + x5 (ix1 b)) - x8 (ix1 b)))
          * Ideal.rsqrt (x9 (ix1 b) + Ideal.ofBits .f32 0x3727C5AC#32) + x7 (ix1 b)) 0 := by
  rw [val_main_v32_apply, val_main_v31_apply, val_main_v28_apply, val_main_v22_apply, val_main_v21_apply,
    val_main_v20_apply, val_main_v19_apply, val_main_v16_apply, val_main_v15_apply, val_main_v14_apply,
    val_main_v18_apply, val_main_v17_apply, val_main_v27_apply, val_main_v26_apply, val_main_v25_apply,
    val_main_v24_apply, val_main_v23_apply, val_main_cst_1_apply, val_main_v30_apply, val_main_v29_apply,
    val_main_call0_v0_apply, val_main_call0_cst_apply]
  have e5 : idx_main_v14 (idx_main_v15 (ix2 a b)) = ix1 b :=
    funext fun d => Fin.ext (by match d with | ⟨0, _⟩ => rfl)
  have e8 : idx_main_v17 (idx_main_v18 (ix2 a b)) = ix1 b :=
    funext fun d => Fin.ext (by match d with | ⟨0, _⟩ => rfl)
  have e6 : idx_main_v20 (idx_main_v21 (ix2 a b)) = ix1 b :=
    funext fun d => Fin.ext (by match d with | ⟨0, _⟩ => rfl)
  have e9 : idx_main_v26 (idx_main_v27 (ix2 a b)) = ix1 b :=
    funext fun d => Fin.ext (by match d with | ⟨0, _⟩ => rfl)
  have e7 : idx_main_v29 (idx_main_v30 (ix2 a b)) = ix1 b :=
    funext fun d => Fin.ext (by match d with | ⟨0, _⟩ => rfl)
  rw [e5, e8, e6, e9, e7]
  show max _ (Ideal.ofBits .f32 0x00000000#32) = _
  rw [Ideal.ofBits_zero_f32]
  rfl

/-- The second layer's aggregated row plus the second bias, at one entry. -/
theorem pre_ref (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 x6 x7 x8 x9 : (⟨S128, .f32⟩ : BufTy).Contents (Elt Ideal)) (x10 : (⟨S128x64, .f32⟩ : BufTy).Contents (Elt Ideal)) (x11 : (⟨S64, .f32⟩ : BufTy).Contents (Elt Ideal)) (a : Fin 100000) (b : Fin 64) :
    val_main_v49 (F := Ideal) x0 x1 x2 x3 x4 x5 x6 x7 x8 x9 x10 x11 (ix2 a b)
      = val_main_v46 (F := Ideal) x0 x1 x2 x3 x4 x5 x6 x7 x8 x9 x10 (ix2 a b) + x11 (ix1 b) := by
  rw [val_main_v49_apply, val_main_v48_apply, val_main_v47_apply]
  have e11 : idx_main_v47 (idx_main_v48 (ix2 a b)) = ix1 b :=
    funext fun d => Fin.ext (by match d with | ⟨0, _⟩ => rfl)
  rw [e11]
  rfl

/-- The merge of the fresh row with the previous embedding by the two masks, at one entry: the fresh entry where the
    first mask's bit is set and the previous entry elsewhere, plus the fresh entry where the second mask's bit is
    set. -/
theorem out_ref (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 x6 x7 x8 x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S100000x64, .f32⟩ : BufTy).Contents (Elt Ideal)) (x13 x14 : (⟨S100000, .i1⟩ : BufTy).Contents (Elt Ideal)) (a : Fin 100000) (b : Fin 64) :
    val_main_v55 (F := Ideal) x0 x1 x2 x3 x4 x5 x6 x7 x8 x9 x10 x11 x12 x13 x14 (ix2 a b)
      = (if x13 (ix1 a) = 1#1 then val_main_v49 (F := Ideal) x0 x1 x2 x3 x4 x5 x6 x7 x8 x9 x10 x11 (ix2 a b) else x12 (ix2 a b))
        + (if x14 (ix1 a) = 1#1 then val_main_v49 (F := Ideal) x0 x1 x2 x3 x4 x5 x6 x7 x8 x9 x10 x11 (ix2 a b) else 0) := by
  rw [val_main_v55_apply, val_main_v52_apply, val_main_v54_apply, val_main_call1_v0_apply, val_main_v51_apply,
    val_main_v50_apply, val_main_call2_v0_apply, val_main_v53_apply, val_main_call2_v1_apply, val_main_cst_5_apply]
  have e13 : idx_main_v51 (idx_main_call1_v0 (ix2 a b)) = ix1 a :=
    funext fun d => Fin.ext (by match d with | ⟨0, _⟩ => rfl)
  have e14 : idx_main_v53 (idx_main_call2_v0 (ix2 a b)) = ix1 a :=
    funext fun d => Fin.ext (by match d with | ⟨0, _⟩ => rfl)
  rw [e13, e14]
  generalize x13 (ix1 a) = s
  generalize x14 (ix1 a) = t
  generalize val_main_v49 (F := Ideal) x0 x1 x2 x3 x4 x5 x6 x7 x8 x9 x10 x11 (ix2 a b) = f
  generalize x12 (ix2 a b) = e
  rcases BitVec.eq_zero_or_eq_one s with hs | hs <;> rcases BitVec.eq_zero_or_eq_one t with ht | ht <;>
    subst hs <;> subst ht <;> simp [Scalar.select, Ideal.ofBits_zero_f32]

/-- The same merge with the masks' bits as truth values, the form the mask-merge identity takes. -/
theorem out_ref_bool (x0 : (⟨S100000x128, .f32⟩ : BufTy).Contents (Elt Ideal)) (x1 x2 : (⟨S1600000, .i32⟩ : BufTy).Contents (Elt Ideal)) (x3 : (⟨S1600000, .f32⟩ : BufTy).Contents (Elt Ideal)) (x4 : (⟨S128x128, .f32⟩ : BufTy).Contents (Elt Ideal)) (x5 x6 x7 x8 x9 : (⟨S128, .f32⟩ : BufTy).Contents (Elt Ideal)) (x10 : (⟨S128x64, .f32⟩ : BufTy).Contents (Elt Ideal)) (x11 : (⟨S64, .f32⟩ : BufTy).Contents (Elt Ideal)) (x12 : (⟨S100000x64, .f32⟩ : BufTy).Contents (Elt Ideal)) (x13 x14 : (⟨S100000, .i1⟩ : BufTy).Contents (Elt Ideal)) (a : Fin 100000) (b : Fin 64) :
    val_main_v55 (F := Ideal) x0 x1 x2 x3 x4 x5 x6 x7 x8 x9 x10 x11 x12 x13 x14 (ix2 a b)
      = (if decide (x13 (ix1 a) = 1#1) then val_main_v49 (F := Ideal) x0 x1 x2 x3 x4 x5 x6 x7 x8 x9 x10 x11 (ix2 a b) else x12 (ix2 a b))
        + (if decide (x14 (ix1 a) = 1#1) then val_main_v49 (F := Ideal) x0 x1 x2 x3 x4 x5 x6 x7 x8 x9 x10 x11 (ix2 a b) else 0) := by
  rw [out_ref]
  simp only [decide_eq_true_eq]

end Cert.ReferenceIdeal.Formulas

end
-- ==== Proof.BridgeArgs.lean ====
/-
  Names for the launch contents of the array arguments, typed by their extents.
-/
import proofs.«163101_j66872640799058_1_alg».proof.Proof.Gen.KernelIdeal.Frame
import Idealize.ShloMosaic.PureOps.Ideal

noncomputable section

namespace Cert.Bridge

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The launch contents of the array arguments on core `c` that the bridge statements name, each typed as the
    array it is (so that an entry of one is an extended real, or a word). -/
abbrev arg0 : FVec Ideal S100000x128 .f32 := m ((c : Thread nD τ).loc main_arg0)
@[inherit_doc arg0] abbrev arg1 : IVec S1600000 32 := m ((c : Thread nD τ).loc main_arg1)
@[inherit_doc arg0] abbrev arg2 : IVec S1600000 32 := m ((c : Thread nD τ).loc main_arg2)
@[inherit_doc arg0] abbrev arg3 : FVec Ideal S1600000 .f32 := m ((c : Thread nD τ).loc main_arg3)
@[inherit_doc arg0] abbrev arg4 : FVec Ideal S128x128 .f32 := m ((c : Thread nD τ).loc main_arg4)
@[inherit_doc arg0] abbrev arg10 : FVec Ideal S128x64 .f32 := m ((c : Thread nD τ).loc main_arg10)
@[inherit_doc arg0] abbrev arg12 : FVec Ideal S100000x64 .f32 := m ((c : Thread nD τ).loc main_arg12)

end Cert.Bridge

end
-- ==== Proof.BridgeNorm.lean ====
/-
  The normalisation stage: the kernel program's hidden matrix is the reference's.

  The kernel program applies the normalisation with the scale and shift folded into two row vectors, computed by
  host operations before the region; the reference applies it step by step.  Entry by entry the two agree by the
  folding identity, which needs every number involved to be real: the aggregated entry, the five parameter rows,
  and the reciprocal square root of the variance plus the constant (real because the variance is nonnegative).
-/
import proofs.«163101_j66872640799058_1_alg».proof.Proof.KernelStages
import proofs.«163101_j66872640799058_1_alg».proof.Proof.HostStages
import proofs.«163101_j66872640799058_1_alg».proof.Proof.RefFormulas
import proofs.«163101_j66872640799058_1_alg».proof.Proof.LibExtReal
import proofs.«163101_j66872640799058_1_alg».proof.Proof.RefRead
import proofs.«163101_j66872640799058_1_alg».proof.Proof.BridgeArgs

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Spec (IsReal)
open Cert.KernelIdeal.HostStages (arg5 arg6 arg7 arg8 arg9 arg11 arg13 arg14)

variable (m : (ℓ : Loc nD τ sig) → Buf (Elt Ideal) ℓ) (ρ : Dev nD → PrngReg) (c : Dev nD)
/-- If the aggregated rows of the first layer agree, the hidden matrix the normalisation region leaves is the
    reference's rectified normalisation, provided the aggregated rows and the parameter rows are real and the
    variance is nonnegative. -/
theorem h_eq
    (hagg : (W2 m ρ c (Proc.devRef .tc main_v13) : FVec Ideal S100000x128 .f32) = Cert.ReferenceIdeal.Read.val_main_v13 (F := Ideal) (arg0 m c) (arg1 m c) (arg2 m c) (arg3 m c) (arg4 m c))
    (h13 : ∀ i, IsReal (Cert.ReferenceIdeal.Read.val_main_v13 (F := Ideal) (arg0 m c) (arg1 m c) (arg2 m c) (arg3 m c) (arg4 m c) i))
    (h5 : ∀ i, IsReal (arg5 m c i)) (h6 : ∀ i, IsReal (arg6 m c i)) (h7 : ∀ i, IsReal (arg7 m c i))
    (h8 : ∀ i, IsReal (arg8 m c i)) (h9 : ∀ i, IsReal (arg9 m c i)) (h9' : ∀ i, 0 ≤ arg9 m c i) :
    (W3 m ρ c (Proc.devRef .tc main_v23) : FVec Ideal S100000x128 .f32) = Cert.ReferenceIdeal.Read.val_main_v32 (F := Ideal) (arg0 m c) (arg1 m c) (arg2 m c) (arg3 m c) (arg4 m c) (arg5 m c) (arg6 m c) (arg7 m c) (arg8 m c) (arg9 m c) := by
  funext i
  obtain ⟨a, b, rfl⟩ : ∃ (a : Fin 100000) (b : Fin 128), i = ix2 a b := ⟨i 0, i 1, eq_ix2 i⟩
  rw [Cert.KernelIdeal.Stages.h_stage m ρ c a b, hagg, Cert.KernelIdeal.HostStages.W2_main_v21_apply m ρ c b,
    Cert.KernelIdeal.HostStages.W2_main_v22_apply m ρ c b, Cert.ReferenceIdeal.Formulas.h_ref]
  exact Cert.Spec.bn_fold (h13 _) (h6 _) (Cert.Spec.isReal_rsqrt_add_eps (h9 _) (h9' _)) (h5 _) (h8 _) (h7 _)

/-- Under the same finiteness, the reference's rectified normalisation holds real numbers only. -/
theorem h_real (h13 : ∀ i, IsReal (Cert.ReferenceIdeal.Read.val_main_v13 (F := Ideal) (arg0 m c) (arg1 m c) (arg2 m c) (arg3 m c) (arg4 m c) i))
    (h5 : ∀ i, IsReal (arg5 m c i)) (h6 : ∀ i, IsReal (arg6 m c i)) (h7 : ∀ i, IsReal (arg7 m c i))
    (h8 : ∀ i, IsReal (arg8 m c i)) (h9 : ∀ i, IsReal (arg9 m c i)) (h9' : ∀ i, 0 ≤ arg9 m c i) :
    ∀ i, IsReal (Cert.ReferenceIdeal.Read.val_main_v32 (F := Ideal) (arg0 m c) (arg1 m c) (arg2 m c) (arg3 m c) (arg4 m c) (arg5 m c) (arg6 m c) (arg7 m c) (arg8 m c) (arg9 m c) i) := by
  intro i
  obtain ⟨a, b, rfl⟩ : ∃ (a : Fin 100000) (b : Fin 128), i = ix2 a b := ⟨i 0, i 1, eq_ix2 i⟩
  rw [Cert.ReferenceIdeal.Formulas.h_ref]
  exact ((((h6 _).mul (((h13 _).add (h5 _)).sub (h8 _))).mul
    (Cert.Spec.isReal_rsqrt_add_eps (h9 _) (h9' _))).add (h7 _)).max Cert.Spec.isReal_zero

end Cert.Bridge

end
-- ==== Proof.BridgeMerge.lean ====
/-
  The merge stage: the kernel program's merged embedding is the reference's.

  The last region merges the fresh row (the second layer's aggregated row plus the second bias) with the previous
  embedding by arithmetic on the two masks written as zeros and ones; the reference selects.  Entry by entry the two
  agree by the mask-merge identity, which needs no finiteness; that the merged rows are real follows from the fresh
  rows and the previous embedding being real.
-/
import proofs.«163101_j66872640799058_1_alg».proof.Proof.KernelStages
import proofs.«163101_j66872640799058_1_alg».proof.Proof.HostStages
import proofs.«163101_j66872640799058_1_alg».proof.Proof.RefFormulas
import proofs.«163101_j66872640799058_1_alg».proof.Proof.LibExtReal
import proofs.«163101_j66872640799058_1_alg».proof.Proof.RefRead
import proofs.«163101_j66872640799058_1_alg».proof.Proof.BridgeArgs

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Spec (IsReal)
open Cert.KernelIdeal.HostStages (arg5 arg6 arg7 arg8 arg9 arg11 arg13 arg14)

variable (m : (ℓ : Loc nD τ sig) → Buf (Elt Ideal) ℓ) (ρ : Dev nD → PrngReg) (c : Dev nD)

/-- What the second stretch of host operations leaves in the four small inputs of the last region, each typed as the
    array it is: the second layer's aggregated rows, the second bias as a row, and the two masks as columns of zeros
    and ones. -/
abbrev agg2 : FVec Ideal S100000x64 .f32 := W5 m ρ c (Proc.devRef .tc main_v37)
@[inherit_doc agg2] abbrev biasRow : FVec Ideal S1x64 .f32 := W5 m ρ c (Proc.devRef .tc main_v42)
@[inherit_doc agg2] abbrev sensCol : FVec Ideal S100000x1 .f32 := W5 m ρ c (Proc.devRef .tc main_v39)
@[inherit_doc agg2] abbrev insCol : FVec Ideal S100000x1 .f32 := W5 m ρ c (Proc.devRef .tc main_v41)

/-- If the last region leaves the arithmetic merge of the fresh row with the previous embedding, and the aggregated
    rows of the second layer agree, the merged embedding is the reference's. -/
theorem out_eq
    (hout : ∀ (a : Fin 100000) (b : Fin 64),
      (W6 m ρ c (Proc.devRef .tc main_v43_1) : FVec Ideal S100000x64 .f32) (ix2 a b)
        = Cert.Spec.mergeAt (agg2 m ρ c (ix2 a b) + biasRow m ρ c (ix2 (0 : Fin 1) b))
            (arg12 m c (ix2 a b)) (sensCol m ρ c (ix2 a (0 : Fin 1))) (insCol m ρ c (ix2 a (0 : Fin 1))))
    (hagg2 : (W5 m ρ c (Proc.devRef .tc main_v37) : FVec Ideal S100000x64 .f32) = Cert.ReferenceIdeal.Read.val_main_v46 (F := Ideal) (arg0 m c) (arg1 m c) (arg2 m c) (arg3 m c) (arg4 m c) (arg5 m c) (arg6 m c) (arg7 m c) (arg8 m c) (arg9 m c) (arg10 m c)) :
    (W6 m ρ c (Proc.devRef .tc main_v43_1) : FVec Ideal S100000x64 .f32) = Cert.ReferenceIdeal.Read.val_main_v55 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) := by
  funext i
  obtain ⟨a, b, rfl⟩ : ∃ (a : Fin 100000) (b : Fin 64), i = ix2 a b := ⟨i 0, i 1, eq_ix2 i⟩
  rw [hout a b]
  dsimp only [agg2, biasRow, sensCol, insCol]
  rw [hagg2, Cert.KernelIdeal.HostStages.W5_main_v42_apply m ρ c b,
    Cert.KernelIdeal.HostStages.W5_main_v39_apply m ρ c a, Cert.KernelIdeal.HostStages.W5_main_v41_apply m ρ c a]
  have key := Cert.Spec.merge_select (Cert.ReferenceIdeal.Read.val_main_v46 (F := Ideal) (arg0 m c) (arg1 m c) (arg2 m c) (arg3 m c) (arg4 m c) (arg5 m c) (arg6 m c) (arg7 m c) (arg8 m c) (arg9 m c) (arg10 m c) (ix2 a b) + arg11 m c (ix1 b)) (arg12 m c (ix2 a b))
    (decide (arg13 m c (ix1 a) = 1#1)) (decide (arg14 m c (ix1 a) = 1#1))
  simp only [decide_eq_true_eq] at key
  rw [key, Cert.ReferenceIdeal.Formulas.out_ref, Cert.ReferenceIdeal.Formulas.pre_ref]

/-- If the second layer's aggregated rows, the second bias and the previous embedding are real, the reference's
    merged embedding holds real numbers only. -/
theorem out_real (h46 : ∀ i, IsReal (Cert.ReferenceIdeal.Read.val_main_v46 (F := Ideal) (arg0 m c) (arg1 m c) (arg2 m c) (arg3 m c) (arg4 m c) (arg5 m c) (arg6 m c) (arg7 m c) (arg8 m c) (arg9 m c) (arg10 m c) i)) (h11 : ∀ i, IsReal (arg11 m c i)) (h12 : ∀ i, IsReal (arg12 m c i)) :
    ∀ i, IsReal (Cert.ReferenceIdeal.Read.val_main_v55 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) i) := by
  intro i
  obtain ⟨a, b, rfl⟩ : ∃ (a : Fin 100000) (b : Fin 64), i = ix2 a b := ⟨i 0, i 1, eq_ix2 i⟩
  rw [Cert.ReferenceIdeal.Formulas.out_ref_bool, Cert.ReferenceIdeal.Formulas.pre_ref]
  exact Cert.Spec.isReal_merge ((h46 _).add (h11 _)) (h12 _) _ _

end Cert.Bridge

end
-- ==== Proof.RefSoftmax.lean ====
/-
  The reference's last stage, read at an entry: the row-wise log-softmax of the merged matrix.

  The reference takes the maximum of every row of the merged matrix (a reduction over the 64 columns that starts
  from minus infinity, then once more the greater of minus infinity and that), subtracts it from the row, takes the
  exponential of every shifted entry, adds the 64 exponentials of a row up from zero, takes the logarithm of the sum and
  subtracts it from the shifted entry. Read at entry `(a, b)` this is "(entry minus row maximum) minus the logarithm
  of the sum over the row of the exponentials of (entry minus row maximum)". The merged matrix itself is whatever the
  earlier stages leave; it is carried as one array and never opened.
-/
import proofs.«163101_j66872640799058_1_alg».proof.Proof.RefRead
import proofs.«163101_j66872640799058_1_alg».proof.Proof.Spec
import Idealize.ShloMosaic.Lib.ValueIdx
import Idealize.ShloMosaic.PureOps.Ideal.Laws

noncomputable section

namespace Cert.ReferenceIdeal.Softmax

open Cert.ReferenceIdeal Cert.ReferenceIdeal.Gen Cert.ReferenceIdeal.Read Idealize.ShloMosaic
open Idealize.ShloMosaic.ValueIdx

/-! ## A row's maximum as the host computes it -/

/-- The single-precision word of minus infinity is the bottom element of the extended reals. -/
theorem neg_inf_word : Ideal.ofBits .f32 0xFF800000#32 = (⊥ : EReal) := by
  simp [Ideal.ofBits, Ideal.ieee]

/-- Row `a` with column `k` put back on the reduced axis is the entry `(a, k)`. -/
theorem row_with_column (h : S100000x64.Reduces [1] S100000) (a : Fin 100000) (k : Fin (S100000x64.size 1)) :
    h.lift (ix1 a) k = ix2 a (⟨k.val, k.isLt⟩ : Fin 64) := by
  funext c; apply Fin.ext
  fin_cases c <;> rfl

/-- The host's reduction of a 100000-by-64 matrix over its columns with the maximum, started from minus infinity, is
    at row `a` the greatest of the row's 64 entries (from the bottom element): the maximum is commutative and
    associative, so the order in which the host visits the columns does not matter. -/
theorem host_row_max (r : FVec Ideal S100000x64 .f32) (h' : S100000x64.ReducesTo [1] S100000) (hu : 0 < S_.numel)
    (a : Fin 100000) :
    Host.reduce FloatOps.maximumf r (constant (F := Ideal) S_ .f32 0xFF800000#32) h' hu (ix1 a)
      = Cert.Spec.rowMax (fun k : Fin 64 => r (ix2 a k)) := by
  have h : S100000x64.Reduces [1] S100000 := by decide
  rw [Host.reduce_eq_fold_single FloatOps.maximumf r _ h' h hu]
  have hf : (r ∘ h.lift (ix1 a)) = fun k : Fin 64 => r (ix2 a k) :=
    funext fun k => congrArg r (row_with_column h a k)
  show Finset.fold max (Ideal.ofBits .f32 0xFF800000#32) (r ∘ h.lift (ix1 a)) (Finset.univ : Finset (Fin 64))
    = Finset.fold max ⊥ (fun k : Fin 64 => r (ix2 a k)) Finset.univ
  rw [hf, neg_inf_word]
  rfl

/-! ## Which row an entry belongs to, through the broadcasts -/

/-- The row maximum broadcast back over the row is read, at entry `(a, k)`, at row `a`. -/
theorem row_of_entry_max (a : Fin 100000) (k : Fin 64) :
    idx_main_call3_v3 (idx_main_call3_v4 (ix2 a k)) = ix1 a :=
  funext fun d => by match d with | ⟨0, _⟩ => rfl

/-- The logarithm of the row's sum broadcast back over the row is read, at entry `(a, b)`, at row `a`. -/
theorem row_of_entry_sum (a : Fin 100000) (b : Fin 64) :
    idx_main_call3_v8 (idx_main_call3_v10 (ix2 a b)) = ix1 a :=
  funext fun d => by match d with | ⟨0, _⟩ => rfl

/-- The `k`-th term of row `a`'s sum is read at entry `(a, k)`. -/
theorem entry_of_row_sum (a : Fin 100000) (k : Fin 64) : idx_main_call3_v7 (ix1 a) k = ix2 a k :=
  funext fun d => by match d with | ⟨0, _⟩ => rfl | ⟨1, _⟩ => rfl

/-! ## The stage, operation by operation -/

variable (x0 : (⟨S100000x128, .f32⟩ : BufTy).Contents (Elt Ideal))
  (x1 x2 : (⟨S1600000, .i32⟩ : BufTy).Contents (Elt Ideal)) (x3 : (⟨S1600000, .f32⟩ : BufTy).Contents (Elt Ideal))
  (x4 : (⟨S128x128, .f32⟩ : BufTy).Contents (Elt Ideal)) (x5 x6 x7 x8 x9 : (⟨S128, .f32⟩ : BufTy).Contents (Elt Ideal))
  (x10 : (⟨S128x64, .f32⟩ : BufTy).Contents (Elt Ideal)) (x11 : (⟨S64, .f32⟩ : BufTy).Contents (Elt Ideal))
  (x12 : (⟨S100000x64, .f32⟩ : BufTy).Contents (Elt Ideal)) (x13 x14 : (⟨S100000, .i1⟩ : BufTy).Contents (Elt Ideal))

/-- The row maximum the reference subtracts, at row `a`: the greater of minus infinity and the host's reduction, which
    is the greatest entry of row `a` of the merged matrix. -/
theorem row_max_entry (a : Fin 100000) :
    val_main_call3_v2 (F := Ideal) x0 x1 x2 x3 x4 x5 x6 x7 x8 x9 x10 x11 x12 x13 x14 (ix1 a)
      = Cert.Spec.rowMax (fun k : Fin 64 => val_main_v55 (F := Ideal) x0 x1 x2 x3 x4 x5 x6 x7 x8 x9 x10 x11 x12 x13 x14 (ix2 a k)) := by
  rw [val_main_call3_v2_apply, val_main_call3_v1_apply, val_main_call3_cst_0_apply]
  unfold val_main_call3_v0 val_main_call3_cst
  generalize val_main_v55 (F := Ideal) x0 x1 x2 x3 x4 x5 x6 x7 x8 x9 x10 x11 x12 x13 x14 = r
  rw [host_row_max r _ _ a, Ideal.maximumf_def, Ideal.ofBits_def, neg_inf_word, max_bot_left]

/-- The shifted entry `(a, k)`: the merged entry minus its row's maximum. -/
theorem shifted_entry (a : Fin 100000) (k : Fin 64) :
    val_main_call3_v5 (F := Ideal) x0 x1 x2 x3 x4 x5 x6 x7 x8 x9 x10 x11 x12 x13 x14 (ix2 a k)
      = val_main_v55 (F := Ideal) x0 x1 x2 x3 x4 x5 x6 x7 x8 x9 x10 x11 x12 x13 x14 (ix2 a k)
        - Cert.Spec.rowMax (fun k' : Fin 64 => val_main_v55 (F := Ideal) x0 x1 x2 x3 x4 x5 x6 x7 x8 x9 x10 x11 x12 x13 x14 (ix2 a k')) := by
  rw [val_main_call3_v5_apply, val_main_call3_v4_apply, val_main_call3_v3_apply, row_of_entry_max, row_max_entry]
  rfl

/-- The logarithm the reference subtracts at entry `(a, b)`: of the sum, from zero, over row `a` of the exponentials
    of the shifted entries. -/
theorem log_sum_entry (a : Fin 100000) (b : Fin 64) :
    val_main_call3_v10 (F := Ideal) x0 x1 x2 x3 x4 x5 x6 x7 x8 x9 x10 x11 x12 x13 x14 (ix2 a b)
      = Ideal.log (∑ k : Fin 64, Ideal.exp (val_main_v55 (F := Ideal) x0 x1 x2 x3 x4 x5 x6 x7 x8 x9 x10 x11 x12 x13 x14 (ix2 a k)
          - Cert.Spec.rowMax (fun k' : Fin 64 => val_main_v55 (F := Ideal) x0 x1 x2 x3 x4 x5 x6 x7 x8 x9 x10 x11 x12 x13 x14 (ix2 a k')))) := by
  rw [val_main_call3_v10_apply, val_main_call3_v9_apply, val_main_call3_v8_apply, row_of_entry_sum,
    val_main_call3_v7_apply, val_main_call3_cst_1_apply, Ideal.ofBits_def, Ideal.ofBits_zero_f32, zero_add,
    Ideal.hostUnary_log_def]
  refine congrArg Ideal.log (Finset.sum_congr rfl fun k _ => ?_)
  rw [entry_of_row_sum, val_main_call3_v6_apply, shifted_entry, Ideal.hostUnary_exp_def]

/-- Entry `(a, b)` of the reference's normalised output: the merged entry minus its row's maximum, minus the logarithm
    of the sum over the row of the exponentials of the entries so shifted. -/
theorem lsm_ref (a : Fin 100000) (b : Fin 64) :
    val_main_v56 (F := Ideal) x0 x1 x2 x3 x4 x5 x6 x7 x8 x9 x10 x11 x12 x13 x14 (ix2 a b)
      = (val_main_v55 (F := Ideal) x0 x1 x2 x3 x4 x5 x6 x7 x8 x9 x10 x11 x12 x13 x14 (ix2 a b)
          - Cert.Spec.rowMax (fun k : Fin 64 => val_main_v55 (F := Ideal) x0 x1 x2 x3 x4 x5 x6 x7 x8 x9 x10 x11 x12 x13 x14 (ix2 a k)))
        - Ideal.log (∑ k : Fin 64, Ideal.exp (val_main_v55 (F := Ideal) x0 x1 x2 x3 x4 x5 x6 x7 x8 x9 x10 x11 x12 x13 x14 (ix2 a k)
            - Cert.Spec.rowMax (fun k : Fin 64 => val_main_v55 (F := Ideal) x0 x1 x2 x3 x4 x5 x6 x7 x8 x9 x10 x11 x12 x13 x14 (ix2 a k)))) := by
  rw [val_main_v56_apply, shifted_entry, log_sum_entry]
  rfl

end Cert.ReferenceIdeal.Softmax

end
-- ==== Proof.BridgeSoftmax.lean ====
/-
  The last stage: the kernel program's normalised output is the reference's.

  The last region writes, beside the merged embedding, its row-wise log-softmax in the form "entry minus (row maximum
  plus log of the sum of the shifted exponentials)"; the reference subtracts the maximum first and the logarithm
  second.  The two groupings agree when the row maximum is real, which it is as the maximum of a nonempty row of
  real numbers.
-/
import proofs.«163101_j66872640799058_1_alg».proof.Proof.RefSoftmax
import proofs.«163101_j66872640799058_1_alg».proof.Proof.HostStages
import proofs.«163101_j66872640799058_1_alg».proof.Proof.LibExtReal
import proofs.«163101_j66872640799058_1_alg».proof.Proof.RefRead
import proofs.«163101_j66872640799058_1_alg».proof.Proof.BridgeArgs

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.Spec (IsReal)
open Cert.KernelIdeal.HostStages (arg5 arg6 arg7 arg8 arg9 arg11 arg13 arg14)

variable (m : (ℓ : Loc nD τ sig) → Buf (Elt Ideal) ℓ) (ρ : Dev nD → PrngReg) (c : Dev nD)

/-- If the last region leaves the row-wise log-softmax of the merged embedding it leaves, and that embedding is the
    reference's and holds real numbers, the normalised output is the reference's. -/
theorem lsm_eq
    (hlsm : ∀ (a : Fin 100000) (b : Fin 64),
      (W6 m ρ c (Proc.devRef .tc main_v43_0) : FVec Ideal S100000x64 .f32) (ix2 a b)
        = Cert.Spec.lsmAt (fun b' : Fin 64 => (W6 m ρ c (Proc.devRef .tc main_v43_1) : FVec Ideal S100000x64 .f32) (ix2 a b')) b)
    (hout : (W6 m ρ c (Proc.devRef .tc main_v43_1) : FVec Ideal S100000x64 .f32) = Cert.ReferenceIdeal.Read.val_main_v55 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c))
    (h55 : ∀ i, IsReal (Cert.ReferenceIdeal.Read.val_main_v55 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) i)) :
    (W6 m ρ c (Proc.devRef .tc main_v43_0) : FVec Ideal S100000x64 .f32) = Cert.ReferenceIdeal.Read.val_main_v56 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) := by
  funext i
  obtain ⟨a, b, rfl⟩ : ∃ (a : Fin 100000) (b : Fin 64), i = ix2 a b := ⟨i 0, i 1, eq_ix2 i⟩
  rw [hlsm a b, hout, Cert.ReferenceIdeal.Softmax.lsm_ref]
  exact Cert.Spec.lsm_regroup _ (Cert.Spec.isReal_rowMax (by decide) _ (fun k => h55 _)) b

end Cert.Bridge

end
-- ==== Proof.CombinePoint.lean ====
/-
  The combine region's body, read entry by entry on the extended reals.

  The body takes a block of aggregated second-layer rows, adds the bias row to every row, and merges the result with
  the previous embedding under the two row masks (given as the numbers 0 and 1, one per row): the merged entry at row
  `p`, lane `q` is `(1 - s p) * e p q + (1 - (1 - s p)) * h p q + i p * h p q` with `h p q = a p q + b q`. It then
  normalises every row by its log-sum-exp: the lane maximum of the merged row, the sum over the lanes of the
  exponentials of the row shifted by that maximum, and the entry less the maximum plus the logarithm of the sum.
  Both results are stated here at one entry `(p, q)` of a block, over arbitrary blocks.
-/
import proofs.«163101_j66872640799058_1_alg».proof.Proof.Gen.KernelIdeal.Frame
import proofs.«163101_j66872640799058_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

/-! ## The two float words the body names -/

/-- The word `0x3F800000` is the number one. -/
theorem ofBits_one_f32 : Ideal.ofBits .f32 0x3F800000#32 = 1 := by
  simp [Ideal.ofBits, Ideal.ieee]
  rw [← EReal.coe_mul]
  norm_num

/-- The word `0xFF800000` is minus infinity, the bottom of the extended reals. -/
theorem ofBits_neg_inf_f32 : Ideal.ofBits .f32 0xFF800000#32 = ⊥ := by
  simp [Ideal.ofBits, Ideal.ieee]

/-! ## Two layout operations with a trailing unit axis, read at an entry -/

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The merged entry -/

/-- The merged block at row `p`, lane `q`: the merge of the biased fresh entry with the previous embedding's entry
    under the row's two masks. -/
theorem merged_at (v0 : Vec Ideal S4000x64 .f32) (v2 : Vec Ideal S1x64 .f32) (v6 : Vec Ideal S4000x1 .f32)
    (v10 : Vec Ideal S4000x64 .f32) (v18 : Vec Ideal S4000x1 .f32) (p : Fin 4000) (q : Fin 64) :
    Gen.k3_pay1 v0 v2 v6 v10 v18 (ix2 p q)
      = Cert.Spec.mergeAt (v0 (ix2 p q) + v2 (ix2 (0 : Fin 1) q)) (v10 (ix2 p q)) (v6 (ix2 p (0 : Fin 1)))
          (v18 (ix2 p (0 : Fin 1))) := by
  unfold Gen.k3_pay1 Cert.Spec.mergeAt
  simp only [shapeCast_self, addf_apply, mulf_apply, subf_apply, broadcast_apply, broadcastTo_a1_ab_apply,
    broadcastTo_1b_ab_apply, Ideal.ofBits_def, ofBits_one_f32]

/-! ## A row's maximum and sum over the lanes -/

/-- The index a lane reduction reads: row `p` of the reduced vector with lane `k` put back is entry `(p, k)`. -/
theorem lift_lane (h : S4000x64.Reduces [1] S4000) (p : Fin 4000) (k : Fin 64) : h.lift (ix1 p) k = ix2 p k := by
  funext d
  apply Fin.ext
  match d with
  | ⟨0, _⟩ => rfl
  | ⟨1, _⟩ => rfl

/-- The lane maximum of a block at row `p` is the greatest entry of that row, from the bottom element. -/
theorem lane_max_at (M : FVec Ideal S4000x64 .f32) (p : Fin 4000) (h : S4000x64.Reduces [1] S4000)
    (hφ : FKind.Formats .f32) (hacc : (0xFF800000#32 : BitVec 32) = 0xFF800000#32) :
    multiReduction (F := Ideal) .maximumf [1] S4000 M 0xFF800000#32 h hφ hacc (ix1 p)
      = Cert.Spec.rowMax (fun b : Fin 64 => M (ix2 p b)) := by
  refine (Ideal.multiReduction_maximumf_single M 0xFF800000#32 h hφ hacc (ix1 p)).trans ?_
  unfold Cert.Spec.rowMax
  rw [Ideal.ofBits_def, ofBits_neg_inf_f32]
  exact congrArg (Finset.fold max ⊥ · (Finset.univ : Finset (Fin 64))) (funext fun k => congrArg M (lift_lane h p k))

/-- The lane sum of a block at row `p` is the sum of that row's entries. -/
theorem lane_sum_at (X : FVec Ideal S4000x64 .f32) (p : Fin 4000) (h : S4000x64.Reduces [1] S4000)
    (hφ : FKind.Formats .f32) (hacc : (0x00000000#32 : BitVec 32) = 0x00000000#32) :
    multiReduction (F := Ideal) .add [1] S4000 X 0x00000000#32 h hφ hacc (ix1 p) = ∑ b : Fin 64, X (ix2 p b) := by
  refine (Ideal.multiReduction_add_single X 0x00000000#32 h hφ hacc (ix1 p)).trans ?_
  exact Finset.sum_congr rfl fun k _ => congrArg X (lift_lane h p k)

/-! ## The log-softmax entry -/

/-- The last step of the normalisation at an entry, over ANY vector `mx` of row maxima and `sm` of row sums: the entry
    less its row's maximum plus the logarithm of its row's sum. -/
theorem normalise_with (M : FVec Ideal S4000x64 .f32) (mx sm : FVec Ideal S4000 .f32)
    (h1 : S4000.ShapeCasts S4000x1) (h2 : S4000x1.Broadcasts S4000x64) (p : Fin 4000) (q : Fin 64) :
    subf M (broadcastTo S4000x64 (addf (shapeCast S4000x1 mx h1) (log (shapeCast S4000x1 sm h1))) h2) (ix2 p q)
      = M (ix2 p q) - (mx (ix1 p) + Ideal.log (sm (ix1 p))) := by
  rw [subf_apply, broadcastTo_a1_ab_apply, addf_apply, shapeCast_a_a1_apply]
  show _ - (_ + Ideal.log (shapeCast S4000x1 sm h1 (ix2 p (0 : Fin 1)))) = _
  rw [shapeCast_a_a1_apply]

/-- The exponential of a block shifted by ANY vector `mx` of row values, at an entry. -/
theorem shifted_exp_with (M : FVec Ideal S4000x64 .f32) (mx : FVec Ideal S4000 .f32)
    (h1 : S4000.ShapeCasts S4000x1) (h2 : S4000x1.Broadcasts S4000x64) (p : Fin 4000) (b : Fin 64) :
    exp (subf M (broadcastTo S4000x64 (shapeCast S4000x1 mx h1) h2)) (ix2 p b)
      = Ideal.exp (M (ix2 p b) - mx (ix1 p)) := by
  show Ideal.exp (subf M (broadcastTo S4000x64 (shapeCast S4000x1 mx h1) h2) (ix2 p b)) = _
  rw [subf_apply, broadcastTo_a1_ab_apply, shapeCast_a_a1_apply]
/-- The row normalisation of an ARBITRARY block `M`: every entry less its row's maximum plus the logarithm of the sum,
    over the row's lanes, of the exponentials of the row shifted by that maximum — the maximum and the sum each taken
    as a vector over the rows, turned into a column and spread back over the lanes. -/
def rowLogSoftmax (M : FVec Ideal S4000x64 .f32) : FVec Ideal S4000x64 .f32 :=
  subf M (broadcastTo S4000x64
    (addf
      (shapeCast S4000x1
        (multiReduction (F := Ideal) .maximumf [1] S4000 M 0xFF800000#32 reduces_S4000x64_S4000 (.inl rfl) rfl)
        shapeCasts_S4000_S4000x1)
      (log (shapeCast S4000x1
        (multiReduction (F := Ideal) .add [1] S4000
          (exp (subf M (broadcastTo S4000x64
            (shapeCast S4000x1
              (multiReduction (F := Ideal) .maximumf [1] S4000 M 0xFF800000#32 reduces_S4000x64_S4000 (.inl rfl) rfl)
              shapeCasts_S4000_S4000x1)
            broadcasts_S4000x1_S4000x64)))
          0x00000000#32 reduces_S4000x64_S4000 (.inl rfl) rfl)
        shapeCasts_S4000_S4000x1)))
    broadcasts_S4000x1_S4000x64)

/-- The body's second result is the row normalisation of its first. -/
theorem normalised_eq (v0 : Vec Ideal S4000x64 .f32) (v2 : Vec Ideal S1x64 .f32) (v6 : Vec Ideal S4000x1 .f32)
    (v10 : Vec Ideal S4000x64 .f32) (v18 : Vec Ideal S4000x1 .f32) :
    Gen.k3_pay2 v0 v2 v6 v10 v18 = rowLogSoftmax (Gen.k3_pay1 v0 v2 v6 v10 v18) := rfl

/-- The row normalisation at row `p`, lane `q`, is the log-softmax of row `p` at lane `q`. -/
theorem rowLogSoftmax_at (M : FVec Ideal S4000x64 .f32) (p : Fin 4000) (q : Fin 64) :
    rowLogSoftmax M (ix2 p q) = Cert.Spec.lsmAt (fun b : Fin 64 => M (ix2 p b)) q := by
  unfold rowLogSoftmax Cert.Spec.lsmAt
  refine (normalise_with M _ _ _ _ p q).trans ?_
  refine congrArg (M (ix2 p q) - ·) (congrArg₂ (· + ·) (lane_max_at M p _ _ _) (congrArg Ideal.log ?_))
  refine (lane_sum_at _ p _ _ _).trans (Finset.sum_congr rfl fun b _ => ?_)
  refine (shifted_exp_with M _ _ _ p b).trans ?_
  exact congrArg (fun x => Ideal.exp (M (ix2 p b) - x)) (lane_max_at M p _ _ _)
/-- The normalised block at row `p`, lane `q`: the log-softmax of the merged row `p` at lane `q`. -/
theorem lsm_at (v0 : Vec Ideal S4000x64 .f32) (v2 : Vec Ideal S1x64 .f32) (v6 : Vec Ideal S4000x1 .f32)
    (v10 : Vec Ideal S4000x64 .f32) (v18 : Vec Ideal S4000x1 .f32) (p : Fin 4000) (q : Fin 64) :
    Gen.k3_pay2 v0 v2 v6 v10 v18 (ix2 p q)
      = Cert.Spec.lsmAt (fun b : Fin 64 => Gen.k3_pay1 v0 v2 v6 v10 v18 (ix2 p b)) q :=
  (congrFun (normalised_eq v0 v2 v6 v10 v18) (ix2 p q)).trans (rowLogSoftmax_at _ p q)

end Cert.KernelIdeal.Blocks

end
-- ==== Proof.CombineRegion.lean ====
/-
  The combine region, from its blocks to its two whole output arrays.

  The region walks 25 row blocks of 4000 rows. At block `t` the body reads rows `4000 t … 4000 t + 3999` of the
  aggregated rows, of the previous embedding and of the two mask columns, and the one bias row, and writes the same
  rows of the two outputs. Every output entry depends only on its own row of the inputs, so each output array is ONE
  function of the five input arrays, entry by entry: the merged rows (`mergedOf`) and their row-wise log-softmax
  (`lsmOf`). What a point writes back is its block of that function; the 25 blocks tile the 100000 rows (row `r`
  belongs to block `r / 4000`); so after the region each output array is that function.
-/
import proofs.«163101_j66872640799058_1_alg».proof.Proof.Gen.KernelIdeal.Frame
import proofs.«163101_j66872640799058_1_alg».proof.Proof.Spec
import proofs.«163101_j66872640799058_1_alg».proof.Proof.CombinePoint
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx
open Idealize.ShloMosaic.TcCoe Idealize.SL.Sem
open Idealize.ShloMosaic.Pipeline (Dat)

section Region

variable (V : (c : Dev nD) → (b : Ref sig .tc) → Buf (Elt Ideal) ((c : Thread nD τ).loc b))

/-- The body loads and stores whole blocks: every access starts at offset zero. -/
theorem combine_offsets_zero : (![0, 0] : Fin 2 → Nat) = fun _ => 0 := funext fun a => by fin_cases a <;> rfl

/-! ### The region's five input arrays as it finds them -/

/-- The aggregated second-layer rows. -/
abbrev aggregate3 (c : Dev nD) : S100000x64.Idx → EReal := V c (Pipeline.arrRef spec3 0)
/-- The bias row. -/
abbrev bias3 (c : Dev nD) : S1x64.Idx → EReal := V c (Pipeline.arrRef spec3 1)
/-- The previous embedding. -/
abbrev previous3 (c : Dev nD) : S100000x64.Idx → EReal := V c (Pipeline.arrRef spec3 2)
/-- The sensitive-row mask, as numbers. -/
abbrev sensitive3 (c : Dev nD) : S100000x1.Idx → EReal := V c (Pipeline.arrRef spec3 3)
/-- The insensitive-row mask, as numbers. -/
abbrev insensitive3 (c : Dev nD) : S100000x1.Idx → EReal := V c (Pipeline.arrRef spec3 4)

/-- The merged rows as ONE function of the five input arrays, entry by entry: row `i 0`, lane `i 1` merges the biased
    aggregate with the previous embedding under that row's two masks. -/
def mergedOf (A : S100000x64.Idx → EReal) (B : S1x64.Idx → EReal) (E : S100000x64.Idx → EReal)
    (S I : S100000x1.Idx → EReal) : S100000x64.Idx → EReal := fun i =>
  Cert.Spec.mergeAt (A (ix2 (i 0) (i 1)) + B (ix2 (0 : Fin 1) (i 1))) (E (ix2 (i 0) (i 1)))
    (S (ix2 (i 0) (0 : Fin 1))) (I (ix2 (i 0) (0 : Fin 1)))

/-- The merged block at a block index `j` is the merged array at the array index `i`, as soon as each input block
    reads, at `j`'s row and lane, what its array holds at `i`'s. -/
theorem merged_of_reads (A : S100000x64.Idx → EReal) (B : S1x64.Idx → EReal) (E : S100000x64.Idx → EReal)
    (S I : S100000x1.Idx → EReal) (x0 : Vec Ideal S4000x64 .f32) (x1 : Vec Ideal S1x64 .f32)
    (x2 : Vec Ideal S4000x64 .f32) (x3 x4 : Vec Ideal S4000x1 .f32) (j : S4000x64.Idx) (i : S100000x64.Idx)
    (h0 : x0 (ix2 (j 0) (j 1)) = A (ix2 (i 0) (i 1)))
    (h1 : x1 (ix2 (0 : Fin 1) (j 1)) = B (ix2 (0 : Fin 1) (i 1)))
    (h2 : x2 (ix2 (j 0) (j 1)) = E (ix2 (i 0) (i 1)))
    (h3 : x3 (ix2 (j 0) (0 : Fin 1)) = S (ix2 (i 0) (0 : Fin 1)))
    (h4 : x4 (ix2 (j 0) (0 : Fin 1)) = I (ix2 (i 0) (0 : Fin 1))) :
    Gen.k3_pay1 x0 x1 x3 x2 x4 j = mergedOf A B E S I i :=
  calc Gen.k3_pay1 x0 x1 x3 x2 x4 j
      = Gen.k3_pay1 x0 x1 x3 x2 x4 (ix2 (j 0) (j 1)) := congrArg _ (eq_ix2 j)
    _ = _ := merged_at x0 x1 x3 x2 x4 (j 0) (j 1)
    _ = mergedOf A B E S I i := by unfold mergedOf; rw [h0, h1, h2, h3, h4]

/-- The windows' index maps over the grid: every row-blocked window sits at block row `t` and block column 0, the
    bias row's window at block (0, 0). -/
theorem index_maps3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-! ### Each input block, read where its array holds it

A block's entry sits in its array, on each axis, at the block index times the block's size plus the entry's own
coordinate: rows `4000 t … 4000 t + 3999` for the four row-blocked windows, the one row for the bias. -/

theorem aggregate_block_at (c : Dev nD) (t : Fin cfg3.N) (y : S4000x64.Idx) (k : S100000x64.Idx)
    (hk0 : (k 0).val = t.val * 4000 + (y 0).val) (hk1 : (k 1).val = (y 1).val) :
    (iblk3 V c 0 t : Vec Ideal S4000x64 .f32) y = aggregate3 V c k := by
  obtain ⟨e0, e1, -⟩ := index_maps3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 4000 + 1 * (y 0).val = (k 0).val; rw [e0, hk0]; omega
  | ⟨1, _⟩ => show win3_0.index t (1 : Fin 2) * 64 + 1 * (y 1).val = (k 1).val; rw [e1, hk1]; omega

theorem bias_block_at (c : Dev nD) (t : Fin cfg3.N) (y : S1x64.Idx) (k : S1x64.Idx)
    (hk0 : (k 0).val = (y 0).val) (hk1 : (k 1).val = (y 1).val) :
    (iblk3 V c 1 t : Vec Ideal S1x64 .f32) y = bias3 V c k := by
  obtain ⟨-, -, e0, e1, -⟩ := index_maps3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (y 0).val = (k 0).val; rw [e0, hk0]; omega
  | ⟨1, _⟩ => show win3_1.index t (1 : Fin 2) * 64 + 1 * (y 1).val = (k 1).val; rw [e1, hk1]; omega

theorem previous_block_at (c : Dev nD) (t : Fin cfg3.N) (y : S4000x64.Idx) (k : S100000x64.Idx)
    (hk0 : (k 0).val = t.val * 4000 + (y 0).val) (hk1 : (k 1).val = (y 1).val) :
    (iblk3 V c 2 t : Vec Ideal S4000x64 .f32) y = previous3 V c k := by
  obtain ⟨-, -, -, -, e0, e1, -⟩ := index_maps3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 4000 + 1 * (y 0).val = (k 0).val; rw [e0, hk0]; omega
  | ⟨1, _⟩ => show win3_2.index t (1 : Fin 2) * 64 + 1 * (y 1).val = (k 1).val; rw [e1, hk1]; omega

theorem sensitive_block_at (c : Dev nD) (t : Fin cfg3.N) (y : S4000x1.Idx) (k : S100000x1.Idx)
    (hk0 : (k 0).val = t.val * 4000 + (y 0).val) (hk1 : (k 1).val = (y 1).val) :
    (iblk3 V c 3 t : Vec Ideal S4000x1 .f32) y = sensitive3 V c k := by
  obtain ⟨-, -, -, -, -, -, e0, e1, -⟩ := index_maps3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 4000 + 1 * (y 0).val = (k 0).val; rw [e0, hk0]; omega
  | ⟨1, _⟩ => show win3_3.index t (1 : Fin 2) * 1 + 1 * (y 1).val = (k 1).val; rw [e1, hk1]; omega

theorem insensitive_block_at (c : Dev nD) (t : Fin cfg3.N) (y : S4000x1.Idx) (k : S100000x1.Idx)
    (hk0 : (k 0).val = t.val * 4000 + (y 0).val) (hk1 : (k 1).val = (y 1).val) :
    (iblk3 V c 4 t : Vec Ideal S4000x1 .f32) y = insensitive3 V c k := by
  obtain ⟨-, -, -, -, -, -, -, -, e0, e1, -⟩ := index_maps3 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 4000 + 1 * (y 0).val = (k 0).val; rw [e0, hk0]; omega
  | ⟨1, _⟩ => show win3_4.index t (1 : Fin 2) * 1 + 1 * (y 1).val = (k 1).val; rw [e1, hk1]; omega

/-- Where an entry of the merged-rows output block at point `t` sits in its array. -/
theorem merged_block_coords (t : Fin cfg3.N) (j : S4000x64.Idx) :
    ((((cfg3.win 6).blk t).view.emb j : S100000x64.Idx) 0).val = t.val * 4000 + (j 0).val
      ∧ ((((cfg3.win 6).blk t).view.emb j : S100000x64.Idx) 1).val = (j 1).val := by
  obtain ⟨-, -, -, -, -, -, -, -, -, -, -, -, e0, e1⟩ := index_maps3 t
  constructor
  · show win3_6.index t (0 : Fin 2) * 4000 + 1 * (j 0).val = _; rw [e0]; omega
  · show win3_6.index t (1 : Fin 2) * 64 + 1 * (j 1).val = _; rw [e1]; omega

/-! ### The merged rows -/

/-- WHAT POINT `t` WRITES BACK to the merged-rows array is block `t` of `mergedOf` of the input arrays as the region
    finds them. -/
theorem flushed6_eq (c : Dev nD) (t : Fin cfg3.N) :
    (dat3 (F := Ideal) V c).flushed 6 t
      = ((cfg3.win 6).blk t).view.read (Elt Ideal)
          (mergedOf (aggregate3 V c) (bias3 V c) (previous3 V c) (sensitive3 V c) (insensitive3 V c)) := by
  show (cfg3.win 6).cut (grid3.coords t) ((dat3 V c).after 6 t) = _
  rw [after3_6]
  unfold out3_6
  rw [View.canon_unit_zero combine_offsets_zero]
  simp only [View.ld_unit_zero (S := S4000x64) combine_offsets_zero, View.ld_unit_zero (S := S1x64) combine_offsets_zero,
    View.ld_unit_zero (S := S4000x1) combine_offsets_zero]
  funext j
  show Gen.k3_pay1 (iblk3 V c 0 t) (iblk3 V c 1 t) (iblk3 V c 3 t) (iblk3 V c 2 t) (iblk3 V c 4 t) j
    = mergedOf (aggregate3 V c) (bias3 V c) (previous3 V c) (sensitive3 V c) (insensitive3 V c)
        (((cfg3.win 6).blk t).view.emb j)
  obtain ⟨r0, r1⟩ := merged_block_coords t j
  exact merged_of_reads _ _ _ _ _ _ _ _ _ _ j _
    (aggregate_block_at V c t _ _ r0 r1) (bias_block_at V c t _ _ rfl r1) (previous_block_at V c t _ _ r0 r1)
    (sensitive_block_at V c t _ _ r0 rfl) (insensitive_block_at V c t _ _ r0 rfl)

/-- An index of the merged-rows array is in point `t`'s block iff each coordinate is in the block's range on its axis. -/
theorem mem_blk6 (t : Fin cfg3.N) (i : S100000x64.Idx) :
    i ∈ ((cfg3.win 6).blk t).view.set
      ↔ ∀ a : Fin 2, win3_6.index t a * S4000x64.size a ≤ (i a).val
          ∧ (i a).val < win3_6.index t a * S4000x64.size a + S4000x64.size a := by
  show i ∈ ((View.whole main_v43_1).slice (win3_6.rect t)).set ↔ _
  rw [View.set_slice_whole, Rect.mem_set_unit]
  exact Iff.rfl

/-- The blocks tile the array: row `r` lies in the block of point `r / 4000`. -/
theorem cover6 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : grid3.N = 25 := N_3
  have ht : (i 0).val / 4000 < cfg3.N := by show (i 0).val / 4000 < grid3.N; omega
  obtain ⟨-, -, -, -, -, -, -, -, -, -, -, -, e60, e61⟩ := index_maps3 ⟨(i 0).val / 4000, ht⟩
  refine ⟨⟨(i 0).val / 4000, ht⟩, flush3_6 _, ?_⟩
  rw [mem_blk6]
  intro a
  match a with
  | ⟨0, _⟩ =>
    show win3_6.index ⟨(i 0).val / 4000, ht⟩ (0 : Fin 2) * 4000 ≤ (i 0).val
      ∧ (i 0).val < win3_6.index ⟨(i 0).val / 4000, ht⟩ (0 : Fin 2) * 4000 + 4000
    rw [e60]; show (i 0).val / 4000 * 4000 ≤ (i 0).val ∧ (i 0).val < (i 0).val / 4000 * 4000 + 4000; omega
  | ⟨1, _⟩ =>
    show win3_6.index ⟨(i 0).val / 4000, ht⟩ (1 : Fin 2) * 64 ≤ (i 1).val
      ∧ (i 1).val < win3_6.index ⟨(i 0).val / 4000, ht⟩ (1 : Fin 2) * 64 + 64
    rw [e61]; omega

/-- THE MERGED-ROWS ARRAY after the region is `mergedOf` of the input arrays as the region finds them. -/
theorem merged_array3 (c : Dev nD) :
    (dat3 (F := Ideal) V c).arrAt 6 cfg3.N
      = mergedOf (aggregate3 V c) (bias3 V c) (previous3 V c) (sensitive3 V c) (insensitive3 V c) :=
  (dat3 (F := Ideal) V c).arrAt_eq_of_cover 6 _ (fun t _ => flushed6_eq V c t) cover6

/-- Entry `(a, b)` of the merged-rows array after the region: the biased aggregate merged with the previous
    embedding under row `a`'s two masks. -/
theorem merged_region3 (c : Dev nD) (a : Fin 100000) (b : Fin 64) :
    (dat3 (F := Ideal) V c).arrAt 6 cfg3.N (ix2 a b)
      = Cert.Spec.mergeAt
          (aggregate3 V c (ix2 a b) + bias3 V c (ix2 (0 : Fin 1) b)) (previous3 V c (ix2 a b))
          (sensitive3 V c (ix2 a (0 : Fin 1))) (insensitive3 V c (ix2 a (0 : Fin 1))) := by
  rw [merged_array3]
  rfl

/-! ### The log-softmax -/

/-- The normalised rows as ONE function of the five input arrays: row `i 0`, lane `i 1` is the log-softmax of the
    merged row `i 0` at lane `i 1`. -/
def lsmOf (A : S100000x64.Idx → EReal) (B : S1x64.Idx → EReal) (E : S100000x64.Idx → EReal)
    (S I : S100000x1.Idx → EReal) : S100000x64.Idx → EReal := fun i =>
  Cert.Spec.lsmAt (fun b : Fin 64 => mergedOf A B E S I (ix2 (i 0) b)) (i 1)

/-- The normalised block at a block index `j` is the normalised array at the array index `i` of the same lane, as
    soon as each input block reads, along `j`'s whole row, what its array holds along `i`'s. -/
theorem lsm_of_reads (A : S100000x64.Idx → EReal) (B : S1x64.Idx → EReal) (E : S100000x64.Idx → EReal)
    (S I : S100000x1.Idx → EReal) (x0 : Vec Ideal S4000x64 .f32) (x1 : Vec Ideal S1x64 .f32)
    (x2 : Vec Ideal S4000x64 .f32) (x3 x4 : Vec Ideal S4000x1 .f32) (j : S4000x64.Idx) (i : S100000x64.Idx)
    (hlane : (i 1).val = (j 1).val)
    (h0 : ∀ b : Fin 64, x0 (ix2 (j 0) b) = A (ix2 (i 0) b))
    (h1 : ∀ b : Fin 64, x1 (ix2 (0 : Fin 1) b) = B (ix2 (0 : Fin 1) b))
    (h2 : ∀ b : Fin 64, x2 (ix2 (j 0) b) = E (ix2 (i 0) b))
    (h3 : x3 (ix2 (j 0) (0 : Fin 1)) = S (ix2 (i 0) (0 : Fin 1)))
    (h4 : x4 (ix2 (j 0) (0 : Fin 1)) = I (ix2 (i 0) (0 : Fin 1))) :
    Gen.k3_pay2 x0 x1 x3 x2 x4 j = lsmOf A B E S I i :=
  have hl : (j 1 : Fin 64) = i 1 := Fin.ext hlane.symm
  calc Gen.k3_pay2 x0 x1 x3 x2 x4 j
      = Gen.k3_pay2 x0 x1 x3 x2 x4 (ix2 (j 0) (j 1)) := congrArg _ (eq_ix2 j)
    _ = Cert.Spec.lsmAt (fun b : Fin 64 => Gen.k3_pay1 x0 x1 x3 x2 x4 (ix2 (j 0) b)) (j 1) :=
        lsm_at x0 x1 x3 x2 x4 (j 0) (j 1)
    _ = lsmOf A B E S I i :=
        congrArg₂ (fun (r : Fin 64 → EReal) (b : Fin 64) => Cert.Spec.lsmAt r b)
          (funext fun b => (merged_at x0 x1 x3 x2 x4 (j 0) b).trans (by
            show _ = Cert.Spec.mergeAt (A (ix2 (i 0) b) + B (ix2 (0 : Fin 1) b)) (E (ix2 (i 0) b))
              (S (ix2 (i 0) (0 : Fin 1))) (I (ix2 (i 0) (0 : Fin 1)))
            rw [h0, h1, h2, h3, h4])) hl

/-- Where an entry of the normalised-rows output block at point `t` sits in its array. -/
theorem normalised_block_coords (t : Fin cfg3.N) (j : S4000x64.Idx) :
    ((((cfg3.win 5).blk t).view.emb j : S100000x64.Idx) 0).val = t.val * 4000 + (j 0).val
      ∧ ((((cfg3.win 5).blk t).view.emb j : S100000x64.Idx) 1).val = (j 1).val := by
  obtain ⟨-, -, -, -, -, -, -, -, -, -, e0, e1, -⟩ := index_maps3 t
  constructor
  · show win3_5.index t (0 : Fin 2) * 4000 + 1 * (j 0).val = _; rw [e0]; omega
  · show win3_5.index t (1 : Fin 2) * 64 + 1 * (j 1).val = _; rw [e1]; omega

/-- WHAT POINT `t` WRITES BACK to the normalised-rows array is block `t` of `lsmOf` of the input arrays as the region
    finds them. -/
theorem flushed5_eq (c : Dev nD) (t : Fin cfg3.N) :
    (dat3 (F := Ideal) V c).flushed 5 t
      = ((cfg3.win 5).blk t).view.read (Elt Ideal)
          (lsmOf (aggregate3 V c) (bias3 V c) (previous3 V c) (sensitive3 V c) (insensitive3 V c)) := by
  show (cfg3.win 5).cut (grid3.coords t) ((dat3 V c).after 5 t) = _
  rw [after3_5]
  unfold out3_5
  rw [View.canon_unit_zero combine_offsets_zero]
  simp only [View.ld_unit_zero (S := S4000x64) combine_offsets_zero, View.ld_unit_zero (S := S1x64) combine_offsets_zero,
    View.ld_unit_zero (S := S4000x1) combine_offsets_zero]
  funext j
  show Gen.k3_pay2 (iblk3 V c 0 t) (iblk3 V c 1 t) (iblk3 V c 3 t) (iblk3 V c 2 t) (iblk3 V c 4 t) j
    = lsmOf (aggregate3 V c) (bias3 V c) (previous3 V c) (sensitive3 V c) (insensitive3 V c)
        (((cfg3.win 5).blk t).view.emb j)
  obtain ⟨r0, r1⟩ := normalised_block_coords t j
  exact lsm_of_reads _ _ _ _ _ _ _ _ _ _ j _ r1
    (fun b => aggregate_block_at V c t _ _ r0 rfl) (fun b => bias_block_at V c t _ _ rfl rfl)
    (fun b => previous_block_at V c t _ _ r0 rfl)
    (sensitive_block_at V c t _ _ r0 rfl) (insensitive_block_at V c t _ _ r0 rfl)

/-- An index of the normalised-rows array is in point `t`'s block iff each coordinate is in the block's range on its
    axis. -/
theorem mem_blk5 (t : Fin cfg3.N) (i : S100000x64.Idx) :
    i ∈ ((cfg3.win 5).blk t).view.set
      ↔ ∀ a : Fin 2, win3_5.index t a * S4000x64.size a ≤ (i a).val
          ∧ (i a).val < win3_5.index t a * S4000x64.size a + S4000x64.size a := by
  show i ∈ ((View.whole main_v43_0).slice (win3_5.rect t)).set ↔ _
  rw [View.set_slice_whole, Rect.mem_set_unit]
  exact Iff.rfl

/-- The blocks tile the array: row `r` lies in the block of point `r / 4000`. -/
theorem cover5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 25 := N_3
  have ht : (i 0).val / 4000 < cfg3.N := by show (i 0).val / 4000 < grid3.N; omega
  obtain ⟨-, -, -, -, -, -, -, -, -, -, e50, e51, -⟩ := index_maps3 ⟨(i 0).val / 4000, ht⟩
  refine ⟨⟨(i 0).val / 4000, ht⟩, flush3_5 _, ?_⟩
  rw [mem_blk5]
  intro a
  match a with
  | ⟨0, _⟩ =>
    show win3_5.index ⟨(i 0).val / 4000, ht⟩ (0 : Fin 2) * 4000 ≤ (i 0).val
      ∧ (i 0).val < win3_5.index ⟨(i 0).val / 4000, ht⟩ (0 : Fin 2) * 4000 + 4000
    rw [e50]; show (i 0).val / 4000 * 4000 ≤ (i 0).val ∧ (i 0).val < (i 0).val / 4000 * 4000 + 4000; omega
  | ⟨1, _⟩ =>
    show win3_5.index ⟨(i 0).val / 4000, ht⟩ (1 : Fin 2) * 64 ≤ (i 1).val
      ∧ (i 1).val < win3_5.index ⟨(i 0).val / 4000, ht⟩ (1 : Fin 2) * 64 + 64
    rw [e51]; omega

/-- THE NORMALISED-ROWS ARRAY after the region is `lsmOf` of the input arrays as the region finds them. -/
theorem lsm_array3 (c : Dev nD) :
    (dat3 (F := Ideal) V c).arrAt 5 cfg3.N
      = lsmOf (aggregate3 V c) (bias3 V c) (previous3 V c) (sensitive3 V c) (insensitive3 V c) :=
  (dat3 (F := Ideal) V c).arrAt_eq_of_cover 5 _ (fun t _ => flushed5_eq V c t) cover5

/-- Entry `(a, b)` of the normalised-rows array after the region: the log-softmax, at lane `b`, of row `a` of the
    merged rows. -/
theorem lsm_region3 (c : Dev nD) (a : Fin 100000) (b : Fin 64) :
    (dat3 (F := Ideal) V c).arrAt 5 cfg3.N (ix2 a b)
      = Cert.Spec.lsmAt (fun b' : Fin 64 =>
          Cert.Spec.mergeAt (aggregate3 V c (ix2 a b') + bias3 V c (ix2 (0 : Fin 1) b')) (previous3 V c (ix2 a b'))
            (sensitive3 V c (ix2 a (0 : Fin 1))) (insensitive3 V c (ix2 a (0 : Fin 1)))) b := by
  rw [lsm_array3]
  rfl

end Region

end Cert.KernelIdeal.Blocks

end
-- ==== Proof.KernelStagesCombine.lean ====
/-
  The last stage of the program, read at the boundary where the run ends.

  The last region merges the second aggregation (plus its bias row) with the previous embedding under the two masks
  and normalises every row of the merged matrix by its log-sum-exp, writing both the merged matrix and the normalised
  one. Its inputs are what the second stretch of host operations left, except the previous embedding, an argument that
  nothing has written and that still holds what was launched.
-/
import proofs.«163101_j66872640799058_1_alg».proof.Proof.Gen.KernelIdeal.Frame
import proofs.«163101_j66872640799058_1_alg».proof.Proof.Spec
import proofs.«163101_j66872640799058_1_alg».proof.Proof.CombineRegion
import proofs.«163101_j66872640799058_1_alg».proof.Proof.ArgsKept

noncomputable section

namespace Cert.KernelIdeal.Stages

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- After the last region, entry `(a, b)` of the merged matrix: the fresh entry (the second aggregation's entry
    `(a, b)` plus the bias row's entry `b`) merged with the launched previous embedding's entry under the two masks'
    entries of row `a`. -/
theorem out_stage (a : Fin 100000) (b : Fin 64) :
    W6 m ρ c (Proc.devRef .tc main_v43_1) (ix2 a b)
      = Spec.mergeAt
          (HAdd.hAdd (α := EReal) (β := EReal) (γ := EReal) (W5 m ρ c (Proc.devRef .tc main_v37) (ix2 a b))
            (W5 m ρ c (Proc.devRef .tc main_v42) (ix2 (0 : Fin 1) b)))
          (m ((c : Thread nD τ).loc main_arg12) (ix2 a b))
          (W5 m ρ c (Proc.devRef .tc main_v39) (ix2 a (0 : Fin 1)))
          (W5 m ρ c (Proc.devRef .tc main_v41) (ix2 a (0 : Fin 1))) := by
  have h1 := congrFun (W6_arr m ρ c 6) (ix2 a b)
  refine h1.trans ((Blocks.merged_region3 (V5 m ρ) c a b).trans ?_)
  show Spec.mergeAt
      (HAdd.hAdd (α := EReal) (β := EReal) (γ := EReal) (W5 m ρ c (Proc.devRef .tc main_v37) (ix2 a b))
            (W5 m ρ c (Proc.devRef .tc main_v42) (ix2 (0 : Fin 1) b)))
      (W5 m ρ c (Proc.devRef .tc main_arg12) (ix2 a b))
      (W5 m ρ c (Proc.devRef .tc main_v39) (ix2 a (0 : Fin 1)))
      (W5 m ρ c (Proc.devRef .tc main_v41) (ix2 a (0 : Fin 1))) = _
  rw [Kept.W5_main_arg12]

/-- After the last region, entry `(a, b)` of the normalised matrix is the log-softmax of row `a` of the merged
    matrix at entry `b`. -/
theorem lsm_stage (a : Fin 100000) (b : Fin 64) :
    W6 m ρ c (Proc.devRef .tc main_v43_0) (ix2 a b)
      = Spec.lsmAt (fun b' : Fin 64 => W6 m ρ c (Proc.devRef .tc main_v43_1) (ix2 a b')) b := by
  have h1 := congrFun (W6_arr m ρ c 5) (ix2 a b)
  refine h1.trans ((Blocks.lsm_region3 (V5 m ρ) c a b).trans ?_)
  refine congrArg (fun r : Fin 64 → EReal => Spec.lsmAt r b) (funext fun b' => ?_)
  exact ((congrFun (W6_arr m ρ c 6) (ix2 a b')).trans (Blocks.merged_region3 (V5 m ρ) c a b')).symm

end Cert.KernelIdeal.Stages

end
-- ==== Proof.InputsReal.lean ====
/-
  What the precondition on the inputs says, entry by entry.

  The precondition is a single truth value: the conjunction of eleven tests "every entry of this array has absolute
  value below plus infinity" and one test "every entry of the running variance is at least zero".  Read back on the
  extended reals, an entry whose absolute value (the greater of the entry and its negative) lies below plus infinity
  is neither infinity, that is, it is a real number; and the last test says the variance is nonnegative.
-/
import proofs.«163101_j66872640799058_1_alg».proof.Pre_finite_inputs
import proofs.«163101_j66872640799058_1_alg».proof.Proof.Spec
import Idealize.ShloMosaic.PureOps.Ideal.Laws
import Idealize.ShloMosaic.Lib.ReduceAll
import Idealize.ShloMosaic.Lib.ValueIdx

noncomputable section

namespace Cert.Spec

open Idealize.ShloMosaic Idealize.ShloMosaic.ValueIdx

/-- An extended real whose absolute value, the greater of it and its negative, lies below plus infinity is a real
    number: either infinity has absolute value plus infinity. -/
theorem isReal_of_abs_lt_top {x : EReal} (h : Max.max x (-x) < ⊤) : IsReal x := by
  induction x using EReal.rec with
  | bot => exact absurd h (by simp)
  | coe r => exact ⟨r, rfl⟩
  | top => exact absurd h (by simp)

/-- A one-bit word made from a truth value is the word 1 exactly when the truth value holds. -/
theorem of_ofBool_decide_eq_one {p : Prop} [Decidable p] (h : BitVec.ofBool (decide p) = 1#1) : p := by
  by_contra hn
  rw [decide_eq_false hn] at h
  exact absurd h (by decide)

/-- One entry of the test "absolute value below plus infinity", the bound being a constant spread over the array:
    where the test's bit is 1 the entry is a real number. -/
theorem isReal_of_abs_test {s0 S : Shape} (dims : Fin s0.rank → Fin S.rank) (bc : s0.BroadcastsInDim S dims)
    (x : FVec Ideal S .f32) (i : S.Idx)
    (h : cmpf .olt (Host.absf x) (broadcastInDim S dims bc (constant (F := Ideal) s0 .f32 0x7F800000#32)) i = 1#1) :
    IsReal (x i) := by
  have h' : BitVec.ofBool (decide (Max.max (x i) (-(x i)) < Ideal.ofBits .f32 0x7F800000#32)) = 1#1 := h
  have ht : Ideal.ofBits .f32 0x7F800000#32 = ⊤ := by simp [Ideal.ofBits, Ideal.ieee]
  rw [ht] at h'
  exact isReal_of_abs_lt_top (of_ofBool_decide_eq_one h')

/-- One entry of the test "at least zero", zero being a constant spread over the array: where the test's bit is 1
    the entry is at least zero. -/
theorem nonneg_of_ge_test {s0 S : Shape} (dims : Fin s0.rank → Fin S.rank) (bc : s0.BroadcastsInDim S dims)
    (x : FVec Ideal S .f32) (i : S.Idx)
    (h : cmpf .oge x (broadcastInDim S dims bc (constant (F := Ideal) s0 .f32 0x00000000#32)) i = 1#1) :
    0 ≤ x i := by
  have h' : BitVec.ofBool (decide (Ideal.ofBits .f32 0x00000000#32 ≤ x i)) = 1#1 := h
  rw [Ideal.ofBits_zero_f32] at h'
  exact of_ofBool_decide_eq_one h'

/-- The shape with no axes has exactly one index. -/
instance subsingleton_scalar_idx : Subsingleton Cert.Pre_finite_inputs.S_.Idx :=
  ⟨fun a b => funext fun d => d.elim0⟩

open Cert.Pre_finite_inputs in
/-- The precondition, read back: every float input of the network holds real numbers only, and the running
    variance is nonnegative.  (The two integer index arrays and the two masks are not constrained.) -/
theorem inputs_real [Cert.Pre_finite_inputs.Facts]
    (x0 : FVec Ideal S100000x128 .f32) (x1 : IVec S1600000 32) (x2 : IVec S1600000 32)
    (x3 : FVec Ideal S1600000 .f32) (x4 : FVec Ideal S128x128 .f32) (x5 : FVec Ideal S128 .f32)
    (x6 : FVec Ideal S128 .f32) (x7 : FVec Ideal S128 .f32) (x8 : FVec Ideal S128 .f32)
    (x9 : FVec Ideal S128 .f32) (x10 : FVec Ideal S128x64 .f32) (x11 : FVec Ideal S64 .f32)
    (x12 : FVec Ideal S100000x64 .f32) (x13 : IVec S100000 1) (x14 : IVec S100000 1)
    (h : Cert.Pre_finite_inputs.fn (F := Ideal) x0 x1 x2 x3 x4 x5 x6 x7 x8 x9 x10 x11 x12 x13 x14 = fun _ => 1#1) :
    (∀ i, IsReal (x0 i)) ∧ (∀ i, IsReal (x3 i)) ∧ (∀ i, IsReal (x4 i)) ∧ (∀ i, IsReal (x5 i)) ∧
    (∀ i, IsReal (x6 i)) ∧ (∀ i, IsReal (x7 i)) ∧ (∀ i, IsReal (x8 i)) ∧ (∀ i, IsReal (x9 i)) ∧
    (∀ i, IsReal (x10 i)) ∧ (∀ i, IsReal (x11 i)) ∧ (∀ i, IsReal (x12 i)) ∧ (∀ i, 0 ≤ x9 i) := by
  have h0 := congrFun h ix0
  dsimp only [fn, fn_part1, fn_part2, fn_part3, andi] at h0
  simp only [IntOp.andi_eq_one] at h0
  obtain ⟨⟨⟨⟨⟨⟨⟨⟨⟨⟨⟨t0, t3⟩, t4⟩, t5⟩, t6⟩, t7⟩, t8⟩, t9⟩, t10⟩, t11⟩, t12⟩, tv⟩ := h0
  exact ⟨fun i => isReal_of_abs_test _ _ x0 i (Host.reduce_andi_all _ _ _ _ _ t0 i),
    fun i => isReal_of_abs_test _ _ x3 i (Host.reduce_andi_all _ _ _ _ _ t3 i),
    fun i => isReal_of_abs_test _ _ x4 i (Host.reduce_andi_all _ _ _ _ _ t4 i),
    fun i => isReal_of_abs_test _ _ x5 i (Host.reduce_andi_all _ _ _ _ _ t5 i),
    fun i => isReal_of_abs_test _ _ x6 i (Host.reduce_andi_all _ _ _ _ _ t6 i),
    fun i => isReal_of_abs_test _ _ x7 i (Host.reduce_andi_all _ _ _ _ _ t7 i),
    fun i => isReal_of_abs_test _ _ x8 i (Host.reduce_andi_all _ _ _ _ _ t8 i),
    fun i => isReal_of_abs_test _ _ x9 i (Host.reduce_andi_all _ _ _ _ _ t9 i),
    fun i => isReal_of_abs_test _ _ x10 i (Host.reduce_andi_all _ _ _ _ _ t10 i),
    fun i => isReal_of_abs_test _ _ x11 i (Host.reduce_andi_all _ _ _ _ _ t11 i),
    fun i => isReal_of_abs_test _ _ x12 i (Host.reduce_andi_all _ _ _ _ _ t12 i),
    fun i => nonneg_of_ge_test _ _ x9 i (Host.reduce_andi_all _ _ _ _ _ tv i)⟩

end Cert.Spec

end
-- ==== Proof.Bridge.lean ====
/-
  The whole chain under the precondition: what the kernel program leaves in its two outputs is what the reference
  computes from the same inputs.

  Stage by stage the kernel program's buffers are identified with the reference's arrays: the first product, the
  first aggregation, the rectified normalisation, the second product, the second aggregation, the merged embedding
  and its row-wise log-softmax.  Three of the steps need real numbers (the folded normalisation, and the regrouped
  log-softmax through its row maximum), so finiteness is carried along the chain, starting from the precondition:
  every float input is real and the running variance is nonnegative.
-/
import proofs.«163101_j66872640799058_1_alg».proof.Proof.BridgeProducts
import proofs.«163101_j66872640799058_1_alg».proof.Proof.BridgeAgg
import proofs.«163101_j66872640799058_1_alg».proof.Proof.BridgeNorm
import proofs.«163101_j66872640799058_1_alg».proof.Proof.BridgeMerge
import proofs.«163101_j66872640799058_1_alg».proof.Proof.BridgeSoftmax
import proofs.«163101_j66872640799058_1_alg».proof.Proof.KernelStagesCombine
import proofs.«163101_j66872640799058_1_alg».proof.Proof.InputsReal
import proofs.«163101_j66872640799058_1_alg».proof.Defs
import proofs.«163101_j66872640799058_1_alg».proof.Proof.Gen.Pre_finite_inputs

set_option maxRecDepth 16384

noncomputable section

namespace Cert.Bridge

open Cert.KernelIdeal Cert.KernelIdeal.Gen
open Idealize.ShloMosaic Idealize.ShloMosaic.TcCoe Idealize.SL.Sem Idealize.ShloMosaic.ValueIdx

/-- Under the precondition, on every core: the merged embedding and the normalised output the kernel program
    leaves are the reference's, computed from the launch contents of the arguments. -/
theorem outputs_final (m : (ℓ : Loc nD τ sig) → Buf (Elt Ideal) ℓ) (ρ : Dev nD → PrngReg)
    (hpre : Cert.Pre_KernelIdeal m) (c : Dev nD) :
    W6 m ρ c (Proc.devRef .tc main_v43_1)
        = Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ W6 m ρ c (Proc.devRef .tc main_v43_0)
        = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  obtain ⟨h0, h3, h4, h5, h6, h7, h8, h9, h10, h11, h12, h9'⟩ :=
    Cert.Spec.inputs_real _ _ _ _ _ _ _ _ _ _ _ _ _ _ _ (hpre c)
  have e13 := agg1_eq m ρ c
  have r13 := agg1_real m c h0 h3 h4
  have e32 := h_eq m ρ c e13 r13 h5 h6 h7 h8 h9 h9'
  have r32 := h_real m c r13 h5 h6 h7 h8 h9 h9'
  have e33 := hw_eq m ρ c e32
  have r33 := hw_real m c r32 h10
  have e46 := agg2_eq m ρ c e33
  have r46 := agg2_real m c r33 h3
  have e55 := out_eq m ρ c (fun a b => Cert.KernelIdeal.Stages.out_stage m ρ c a b) e46
  have r55 := out_real m c r46 h11 h12
  have e56 := lsm_eq m ρ c (fun a b => Cert.KernelIdeal.Stages.lsm_stage m ρ c a b) e55 r55
  exact ⟨e55, e56⟩

/-- Under the precondition the merged embedding the kernel program leaves is the reference's. -/
theorem out_final (m : (ℓ : Loc nD τ sig) → Buf (Elt Ideal) ℓ) (ρ : Dev nD → PrngReg)
    (hpre : Cert.Pre_KernelIdeal m) (c : Dev nD) :
    W6 m ρ c (Proc.devRef .tc main_v43_1)
      = Cert.ReferenceIdeal.Read.val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (outputs_final m ρ hpre c).1

/-- Under the precondition the normalised output the kernel program leaves is the reference's. -/
theorem lsm_final (m : (ℓ : Loc nD τ sig) → Buf (Elt Ideal) ℓ) (ρ : Dev nD → PrngReg)
    (hpre : Cert.Pre_KernelIdeal m) (c : Dev nD) :
    W6 m ρ c (Proc.devRef .tc main_v43_0)
      = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (outputs_final m ρ hpre c).2

end Cert.Bridge

end
-- ==== Proof.lean ====
/-
  The certificate of a two-layer graph network's kernel program against its reference, on the extended reals.

  Both programs project every node's features by a weight matrix, add up along the edges the projected rows of the source
  nodes scaled by the edge weights, normalise by running statistics and rectify, project and aggregate a second time, add a
  bias, keep the previous embedding outside the sensitive rows and add the fresh row on the insensitive ones, and take the
  row-wise log-softmax. They differ in three places. The kernel folds the first layer's bias and the normalisation into one
  scale and one shift per column, `agg · (γ·r) + (β + (γ·r)·(b − μ))` against the reference's `γ·((agg + b) − μ)·r + β` with
  `r = 1/√(var + ε)`: one identity of real numbers, which needs every entry to be a real number — the inputs are finite by
  the precondition, `var ≥ 0` keeps `r` real (at `var + ε = 0` it is +∞ and the two forms differ), and sums and products
  of reals are real. The kernel writes the two masks as the numbers 0 and 1 and merges by arithmetic where the reference
  selects: `0 · x = 0` and `1 · x = x` hold for every extended real. The kernel subtracts `max + log Σ exp(· − max)` from a
  row where the reference subtracts the maximum and then the logarithm: equal once the row's maximum is a real number.
  The matrix products (blocks of 4000 rows against one whole product) and the aggregations (the same host operations in
  both programs) are the same sums.

  Frames: the two kernel programs' are the frame certificates of their segments; the reference's is its run with the
  results dropped. The idealization rewrote no operation, so there is nothing to preserve.
-/
import proofs.«163101_j66872640799058_1_alg».proof.Defs
import proofs.«163101_j66872640799058_1_alg».proof.Proof.Gen.Kernel
import proofs.«163101_j66872640799058_1_alg».proof.Proof.Gen.Kernel.Skeleton
import proofs.«163101_j66872640799058_1_alg».proof.Proof.Gen.Kernel.Launch
import proofs.«163101_j66872640799058_1_alg».proof.Proof.Gen.Kernel.Points
import proofs.«163101_j66872640799058_1_alg».proof.Proof.Gen.Kernel.Frame
import proofs.«163101_j66872640799058_1_alg».proof.Proof.Gen.KernelIdeal
import proofs.«163101_j66872640799058_1_alg».proof.Proof.Gen.KernelIdeal.Skeleton
import proofs.«163101_j66872640799058_1_alg».proof.Proof.Gen.KernelIdeal.Launch
import proofs.«163101_j66872640799058_1_alg».proof.Proof.Gen.KernelIdeal.Points
import proofs.«163101_j66872640799058_1_alg».proof.Proof.Gen.KernelIdeal.Frame
import proofs.«163101_j66872640799058_1_alg».proof.Proof.Gen.ReferenceIdeal
import proofs.«163101_j66872640799058_1_alg».proof.Proof.Gen.Pre_finite_inputs
import proofs.«163101_j66872640799058_1_alg».proof.Proof.KernelRun
import proofs.«163101_j66872640799058_1_alg».proof.Proof.RefStages
import proofs.«163101_j66872640799058_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

section Claims

/-- The reference program runs and leaves its arguments as launched: its run, the results dropped. -/
theorem frame_reference : Cert.frame_ReferenceIdeal := fun m ρ _ =>
  (θ_run Cert.ReferenceIdeal.defs _ _).mono (fun r h c =>
    ⟨(h c Cert.ReferenceIdeal.main_arg0).trans (Cert.ReferenceIdeal.Stages.kept_main_arg0 m c),
     (h c Cert.ReferenceIdeal.main_arg1).trans (Cert.ReferenceIdeal.Stages.kept_main_arg1 m c),
     (h c Cert.ReferenceIdeal.main_arg2).trans (Cert.ReferenceIdeal.Stages.kept_main_arg2 m c),
     (h c Cert.ReferenceIdeal.main_arg3).trans (Cert.ReferenceIdeal.Stages.kept_main_arg3 m c),
     (h c Cert.ReferenceIdeal.main_arg4).trans (Cert.ReferenceIdeal.Stages.kept_main_arg4 m c),
     (h c Cert.ReferenceIdeal.main_arg5).trans (Cert.ReferenceIdeal.Stages.kept_main_arg5 m c),
     (h c Cert.ReferenceIdeal.main_arg6).trans (Cert.ReferenceIdeal.Stages.kept_main_arg6 m c),
     (h c Cert.ReferenceIdeal.main_arg7).trans (Cert.ReferenceIdeal.Stages.kept_main_arg7 m c),
     (h c Cert.ReferenceIdeal.main_arg8).trans (Cert.ReferenceIdeal.Stages.kept_main_arg8 m c),
     (h c Cert.ReferenceIdeal.main_arg9).trans (Cert.ReferenceIdeal.Stages.kept_main_arg9 m c),
     (h c Cert.ReferenceIdeal.main_arg10).trans (Cert.ReferenceIdeal.Stages.kept_main_arg10 m c),
     (h c Cert.ReferenceIdeal.main_arg11).trans (Cert.ReferenceIdeal.Stages.kept_main_arg11 m c),
     (h c Cert.ReferenceIdeal.main_arg12).trans (Cert.ReferenceIdeal.Stages.kept_main_arg12 m c),
     (h c Cert.ReferenceIdeal.main_arg13).trans (Cert.ReferenceIdeal.Stages.kept_main_arg13 m c),
     (h c Cert.ReferenceIdeal.main_arg14).trans (Cert.ReferenceIdeal.Stages.kept_main_arg14 m c)⟩)
    (Cert.ReferenceIdeal.Value.run_after (F := Ideal) m ρ)

open Cert.KernelIdeal Cert.KernelIdeal.Gen in
/-- From memories agreeing on the arguments both idealized programs run; the kernel's two result buffers end at the last
    boundary's contents, and the reference's two results are the same arrays. -/
theorem algebraic : Cert.algebraic_KernelIdeal_ReferenceIdeal := by
  intro m ρ m' ρ' hpre hagree
  refine ⟨fun c => W6 m ρ c (Proc.devRef .tc main_v43_0), fun c => W6 m ρ c (Proc.devRef .tc main_v43_1), ?_, ?_⟩
  · exact (θ_run Cert.KernelIdeal.defs _ _).mono (fun r h c =>
      ⟨h c _ (mem_uc main_v43_0 (by decide)), h c _ (mem_uc main_v43_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)
      (Cert.KernelIdeal.RunValue.run_final m ρ)
  · refine (θ_run Cert.ReferenceIdeal.defs _ _).mono (fun r h c => ?_) (Cert.ReferenceIdeal.Value.run_after (F := Ideal) m' ρ')
    obtain ⟨g0, g1, g2, g3, g4, g5, g6, g7, g8, g9, g10, g11, g12, g13, g14⟩ := hagree c
    refine ⟨?_, ?_,
     (h c Cert.ReferenceIdeal.main_arg0).trans (Cert.ReferenceIdeal.Stages.kept_main_arg0 m' c),
     (h c Cert.ReferenceIdeal.main_arg1).trans (Cert.ReferenceIdeal.Stages.kept_main_arg1 m' c),
     (h c Cert.ReferenceIdeal.main_arg2).trans (Cert.ReferenceIdeal.Stages.kept_main_arg2 m' c),
     (h c Cert.ReferenceIdeal.main_arg3).trans (Cert.ReferenceIdeal.Stages.kept_main_arg3 m' c),
     (h c Cert.ReferenceIdeal.main_arg4).trans (Cert.ReferenceIdeal.Stages.kept_main_arg4 m' c),
     (h c Cert.ReferenceIdeal.main_arg5).trans (Cert.ReferenceIdeal.Stages.kept_main_arg5 m' c),
     (h c Cert.ReferenceIdeal.main_arg6).trans (Cert.ReferenceIdeal.Stages.kept_main_arg6 m' c),
     (h c Cert.ReferenceIdeal.main_arg7).trans (Cert.ReferenceIdeal.Stages.kept_main_arg7 m' c),
     (h c Cert.ReferenceIdeal.main_arg8).trans (Cert.ReferenceIdeal.Stages.kept_main_arg8 m' c),
     (h c Cert.ReferenceIdeal.main_arg9).trans (Cert.ReferenceIdeal.Stages.kept_main_arg9 m' c),
     (h c Cert.ReferenceIdeal.main_arg10).trans (Cert.ReferenceIdeal.Stages.kept_main_arg10 m' c),
     (h c Cert.ReferenceIdeal.main_arg11).trans (Cert.ReferenceIdeal.Stages.kept_main_arg11 m' c),
     (h c Cert.ReferenceIdeal.main_arg12).trans (Cert.ReferenceIdeal.Stages.kept_main_arg12 m' c),
     (h c Cert.ReferenceIdeal.main_arg13).trans (Cert.ReferenceIdeal.Stages.kept_main_arg13 m' c),
     (h c Cert.ReferenceIdeal.main_arg14).trans (Cert.ReferenceIdeal.Stages.kept_main_arg14 m' c)⟩
    · rw [h c Cert.ReferenceIdeal.main_v56, (Cert.ReferenceIdeal.Stages.results m' c).2, g0, g1, g2, g3, g4, g5, g6, g7, g8, g9, g10, g11, g12, g13, g14]
      exact (Cert.Bridge.lsm_final m ρ hpre c).symm
    · rw [h c Cert.ReferenceIdeal.main_v55, (Cert.ReferenceIdeal.Stages.results m' c).1, g0, g1, g2, g3, g4, g5, g6, g7, g8, g9, g10, g11, g12, g13, g14]
      exact (Cert.Bridge.out_final m ρ hpre c).symm

end Claims

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
